-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x1024 : Shape := ⟨2, ![512, 1024]⟩
abbrev S512x1 : Shape := ⟨2, ![512, 1]⟩
abbrev S1024x1024 : Shape := ⟨2, ![1024, 1024]⟩
abbrev S1x1024 : Shape := ⟨2, ![1, 1024]⟩
abbrev S512 : Shape := ⟨1, ![512]⟩

abbrev nBuf : Space → Nat
  | .hbm => 20
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x1, .f32⟩
  | .local _ .vmem, ⟨4, _⟩ => ⟨S512x1, .f32⟩
  | .local _ .vmem, ⟨5, _⟩ => ⟨S1x4096, .f32⟩
  | .local _ .vmem, ⟨6, _⟩ => ⟨S512x1, .i32⟩
  | .local _ .vmem, ⟨7, _⟩ => ⟨S512x1, .i32⟩
  | .local _ .vmem, ⟨8, _⟩ => ⟨S1x4096, .i32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  ![0, v8.toNat]
def k0_cond2 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_22 : BitVec 32 := 0#32
  let v50 : BitVec 1 := Scalar.cmpi .ne v49 c0_i32_22
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x1024 : 0 < S1024x1024.numel
  shapeCasts_S1024x1024_S1024x1024 : S1024x1024.ShapeCasts S1024x1024
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  natLt_1_32 : 1 < 32
  reducesTo_S4096x1_S_d0_1 : S4096x1.ReducesTo [0, 1] S_
  dot_S512x1024_S1024x1024_S512x1024_1_1_0_0_n_n_wf : DotDims.WF S512x1024 S1024x1024 S512x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S4096x1024.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KB.Runs.lean ====
/-
  What the runs of the kernel body share: the two conditions of the body's branches, decided over the grid
  (the first column tile of a row sweep resets the running maximum and minimum, the last one finishes the row
  tile), where the two result windows are idle, and the names of the staging buffers at a grid point.
-/
import proofs.«119346_j15221364097742_2_alg».proof.Proof.Gen.Kernel.Launch
import proofs.«119346_j15221364097742_2_alg».proof.Proof.Gen.Kernel.Skeleton
import proofs.«119346_j15221364097742_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The first branch is taken when the column coordinate is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The second branch is taken when the column coordinate is 3, the last. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, ¬cond1 (grid0.coords t) → cfg0.idle 6 (grid0.coords t) = true := by decide +kernel
theorem idle7 : ∀ t : Fin cfg0.N, ¬cond1 (grid0.coords t) → cfg0.idle 7 (grid0.coords t) = true := by decide +kernel
theorem noFlush6 : ∀ t : Fin cfg0.N, ¬cond1 (grid0.coords t) → (cfg0.win 6).flush t = false := by decide +kernel
theorem noFlush7 : ∀ t : Fin cfg0.N, ¬cond1 (grid0.coords t) → (cfg0.win 7).flush t = false := by decide +kernel
theorem live6 : ∀ t : Fin cfg0.N, cond1 (grid0.coords t) → cfg0.idle 6 (grid0.coords t) = false := by decide +kernel
theorem live7 : ∀ t : Fin cfg0.N, cond1 (grid0.coords t) → cfg0.idle 7 (grid0.coords t) = false := by decide +kernel

/-! ## The staging buffers at a grid point -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4096 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)
/-- The two scratch buffers the body keeps the running maximum and minimum in. -/
abbrev sc0 : Memref sig .tc .vmem S512x1 .f32 := Memref.whole cc0_scratch0
abbrev sc1 : Memref sig .tc .vmem S512x1 .f32 := Memref.whole cc0_scratch1
abbrev VS0 : View sig .tc .vmem S512x1 .f32 := sc0.view
abbrev VS1 : View sig .tc .vmem S512x1 .f32 := sc1.view
abbrev VO6 : View sig .tc .vmem S512x1 .f32 := (Memref.whole cc0_stg6_0 : Memref sig .tc .vmem S512x1 .f32).view
abbrev VO7 : View sig .tc .vmem S512x1 .f32 := (Memref.whole cc0_stg7_0 : Memref sig .tc .vmem S512x1 .f32).view

end Cert.Kernel.Hand

end
-- ==== Proof.KB.RunB.lean ====
/-
  The kernel body at a grid point whose column coordinate is neither the first nor the last: neither branch is
  taken; the body loads its tiles, and overwrites the running maximum and minimum with their update.
-/
import proofs.«119346_j15221364097742_2_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run with neither branch taken: the inputs' buffers are kept, the two result buffers are handed back
    untouched, and each scratch buffer ends with the pieces the run finds written over it. -/
noncomputable def kernelRunB (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0 i) (hc1 : ¬cond1 i)
    (x0 : Vec F S512x1024 .bf16) (x1 : Vec F S4096x1024 .bf16) (x2 : Vec F S512x1 .f32) (x3 : Vec F S1x4096 .f32) (x4 : Vec F S512x1 .i32) (x5 : Vec F S1x4096 .i32) (xs0 xs1 : Vec F S512x1 .f32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.KB.RunA.lean ====
/-
  The kernel body at a grid point whose column coordinate is the first: the first branch is taken (the running
  maximum and minimum are reset), the second is not.
-/
import proofs.«119346_j15221364097742_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first column tile: the inputs' buffers are kept, the two result buffers are handed back
    untouched, and each scratch buffer, whatever it held, ends with the pieces the run finds written over it. -/
noncomputable def kernelRunA (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0 i) (hc1 : ¬cond1 i)
    (x0 : Vec F S512x1024 .bf16) (x1 : Vec F S4096x1024 .bf16) (x2 : Vec F S512x1 .f32) (x3 : Vec F S1x4096 .f32) (x4 : Vec F S512x1 .i32) (x5 : Vec F S1x4096 .i32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Hand

end
-- ==== Proof.KB.RunC.lean ====
/-
  The kernel body at a grid point whose column coordinate is the last: the first branch is not taken, the second
  is (the row tile's two results are computed from the finished running maximum and minimum and stored).
-/
import proofs.«119346_j15221364097742_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last column tile: the inputs' buffers are kept, and the two result buffers, whatever they
    held, and the two scratch buffers end with the pieces the run finds written over them. -/
noncomputable def kernelRunC (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0 i) (hc1 : cond1 i)
    (x0 : Vec F S512x1024 .bf16) (x1 : Vec F S4096x1024 .bf16) (x2 : Vec F S512x1 .f32) (x3 : Vec F S1x4096 .f32) (x4 : Vec F S512x1 .i32) (x5 : Vec F S1x4096 .i32) (xs0 xs1 : Vec F S512x1 .f32) :
    Σ' (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Hand

end
-- ==== Proof.KB.Body.lean ====
/-
  The proof data of the one pipeline and the body obligation.

  At every grid point the six input windows' staging buffers hold their blocks of the arrays the region finds. The two
  scratch buffers carry the running maximum and minimum of a row tile from one column tile to the next: what they hold
  after each point is defined by recursion on the point (reset at the first column tile of a row sweep, updated at
  every tile); the two result windows are stored only at the last column tile of a row sweep and are idle elsewhere.
-/
import proofs.«119346_j15221364097742_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What is written for a result window at a point that stores nothing into it: never consulted. -/
def idleOut6 : Vec F S512x1 .f32 := VO6.read (Elt F) VO6.junk
def idleOut7 : Vec F S512x1 .f32 := VO7.read (Elt F) VO7.junk

/-- The first column tile of a row sweep: the scratch buffers are covered by the pieces written. -/
theorem scoverA_0 (c : Dev nD) (t : Fin cfg0.N) (h0 : t.val % 4 = 0) (h1 : ¬t.val % 4 = 3) (y : S512x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).1, y ∈ pc.1.set :=
  View.cover_of_tiledL _ S512x1.size (by sl_kernel_rfl) y
theorem scoverA_1 (c : Dev nD) (t : Fin cfg0.N) (h0 : t.val % 4 = 0) (h1 : ¬t.val % 4 = 3) (y : S512x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.1, y ∈ pc.1.set :=
  View.cover_of_tiledL _ S512x1.size (by sl_kernel_rfl) y

def stepA (c : Dev nD) (t : Fin cfg0.N) (h0 : t.val % 4 = 0) (h1 : ¬t.val % 4 = 3) : Vec F S512x1 .f32 × Vec F S512x1 .f32 × Vec F S512x1 .f32 × Vec F S512x1 .f32 :=
  (idleOut6, idleOut7,
   VS0.read (Elt F) (VS0.writes (Elt F) VS0.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).1),
   VS1.read (Elt F) (VS1.writes (Elt F) VS1.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.1))

/-- A middle column tile. -/
theorem scoverB_0 (c : Dev nD) (t : Fin cfg0.N) (h0 : ¬t.val % 4 = 0) (h1 : ¬t.val % 4 = 3) (p0 p1 : Vec F S512x1 .f32) (y : S512x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).1, y ∈ pc.1.set :=
  View.cover_of_tiledL _ S512x1.size (by sl_kernel_rfl) y
theorem scoverB_1 (c : Dev nD) (t : Fin cfg0.N) (h0 : ¬t.val % 4 = 0) (h1 : ¬t.val % 4 = 3) (p0 p1 : Vec F S512x1 .f32) (y : S512x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).2.1, y ∈ pc.1.set :=
  View.cover_of_tiledL _ S512x1.size (by sl_kernel_rfl) y

def stepB (c : Dev nD) (t : Fin cfg0.N) (h0 : ¬t.val % 4 = 0) (h1 : ¬t.val % 4 = 3) (p0 p1 : Vec F S512x1 .f32) : Vec F S512x1 .f32 × Vec F S512x1 .f32 × Vec F S512x1 .f32 × Vec F S512x1 .f32 :=
  (idleOut6, idleOut7,
   VS0.read (Elt F) (VS0.writes (Elt F) VS0.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).1),
   VS1.read (Elt F) (VS1.writes (Elt F) VS1.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).2.1))

/-- The last column tile. -/
theorem coverC_6 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).1, y ∈ pc.1.set :=
  View.cover_of_tiledL _ S512x1.size (by sl_kernel_rfl) y
theorem coverC_7 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.1, y ∈ pc.1.set :=
  View.cover_of_tiledL _ S512x1.size (by sl_kernel_rfl) y
theorem scoverC_0 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.1, y ∈ pc.1.set :=
  View.cover_of_tiledL _ S512x1.size (by sl_kernel_rfl) y
theorem scoverC_1 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.2.1, y ∈ pc.1.set :=
  View.cover_of_tiledL _ S512x1.size (by sl_kernel_rfl) y

def stepC (c : Dev nD) (t : Fin cfg0.N) (h0 : ¬t.val % 4 = 0) (h1 : t.val % 4 = 3) (p0 p1 : Vec F S512x1 .f32) : Vec F S512x1 .f32 × Vec F S512x1 .f32 × Vec F S512x1 .f32 × Vec F S512x1 .f32 :=
  (VO6.read (Elt F) (VO6.writes (Elt F) VO6.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).1),
   VO7.read (Elt F) (VO7.writes (Elt F) VO7.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.1),
   VS0.read (Elt F) (VS0.writes (Elt F) VS0.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.1),
   VS1.read (Elt F) (VS1.writes (Elt F) VS1.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.2.1))

/-! ## What the result windows and the scratch buffers hold after each point -/

/-- After the body at position n: the two result windows' staging buffers, then the two scratch buffers. -/
def outsAt (c : Dev nD) : (n : ℕ) → n < cfg0.N → Vec F S512x1 .f32 × Vec F S512x1 .f32 × Vec F S512x1 .f32 × Vec F S512x1 .f32
  | 0, hn => stepA m c ⟨0, hn⟩ (Nat.zero_mod _) (show ¬ (0 % 4 = 3) by decide)
  | n + 1, hn =>
    if h0 : (n + 1) % 4 = 0 then
      if h1 : (n + 1) % 4 = 3 then False.elim (by omega)
      else stepA m c ⟨n + 1, hn⟩ h0 h1
    else
      if h1 : (n + 1) % 4 = 3 then
        stepC m c ⟨n + 1, hn⟩ h0 h1 (outsAt c n (Nat.lt_of_succ_lt hn)).2.2.1 (outsAt c n (Nat.lt_of_succ_lt hn)).2.2.2
      else
        stepB m c ⟨n + 1, hn⟩ h0 h1 (outsAt c n (Nat.lt_of_succ_lt hn)).2.2.1 (outsAt c n (Nat.lt_of_succ_lt hn)).2.2.2

theorem outsAt_A (c : Dev nD) (t : Fin cfg0.N) (h0 : t.val % 4 = 0) (h1 : ¬t.val % 4 = 3) :
    outsAt m c t.val t.isLt = stepA m c t h0 h1 := by
  obtain ⟨n, hn⟩ := t
  cases n with
  | zero => rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = stepB m c t h0 h1 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt m c t.val t.isLt = stepC m c t h0 h1 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant between points -/

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before the first point the scratch buffers hold anything; afterwards what the point before left. -/
def PhiS (c : Dev nD) : (n : ℕ) → n ≤ cfg0.N → sProp 𝕄
  | 0, _ => Pipeline.ΦA spec0 c
  | n + 1, hn => iprop(iprop(owns (c : Thread nD τ) sc0 fullShare ((outsAt m c n hn).2.2.1) ∗ owns (c : Thread nD τ) sc1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((outsAt m c n hn).2.2.1) ∗ owns (c : Thread nD τ) sc1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) sc0 fullShare ((outsAt m c (n - 1) (by omega)).2.2.1) ∗ owns (c : Thread nD τ) sc1 fullShare ((outsAt m c (n - 1) (by omega)).2.2.2)) ∗ (∃ r, prngReg c r)) := by
  cases n with
  | zero => exact absurd rfl hz
  | succ n => rfl

/-! ## The proof data -/

/-- The arrays as the region finds them; after the body each input's buffer at its block, the result windows' at
    `outsAt`; the array the two first windows share is held by each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.Kernel.Hand

end
-- ==== Proof.KB.Oblig.lean ====
/-
  The body obligation: at every grid point, from the invariant and the windows' staging buffers at what they then
  hold, the kernel body runs to the invariant at the next point and the buffers at what the proof data say.
-/
import proofs.«119346_j15221364097742_2_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the closed forms of the two conditions say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t (fun h => h1 ((hcond1 t).mp h))) (noFlush6 t (fun h => h1 ((hcond1 t).mp h)))]
      rw [Dat.leavesExact_idle (dats m 0 c) 7 t (idle7 t (fun h => h1 ((hcond1 t).mp h))) (noFlush7 t (fun h => h1 ((hcond1 t).mp h)))]
      rw [outsAt_A m c t h0 h1]
      unfold stepA; (try dsimp only)
      by_cases hz : t.val = 0
      · -- the very first point: the scratch buffers hold anything
        rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverA_0 m c t h0 h1)
            · unfold owns; iexists _; isplitr
              swap; · iexact HS1
              ipureintro; exact View.read_writes_of_cover _ _ _ _ _ (scoverA_1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · -- a later row sweep's first tile: what the scratch buffers hold is forgotten
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverA_0 m c t h0 h1)
            · unfold owns; iexists _; isplitr
              swap; · iexact HS1
              ipureintro; exact View.read_writes_of_cover _ _ _ _ _ (scoverA_1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 4 = 3
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t ((hcond1 t).mpr h1)], after6]
      rw [show (dats m 0 c).leavesExact 7 t = owns (c : Thread nD τ) (ms7 t) fullShare ((dats m 0 c).after 7 t) from by
        unfold Dat.leavesExact; rw [live7 t ((hcond1 t).mpr h1)], after7]
      rw [outsAt_C m c t h0 h1]
      unfold stepC; (try dsimp only)
      have hz : t.val ≠ 0 := fun e => h0 (by rw [e])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverC_0 m c t h0 h1 _ _)
            · unfold owns; iexists _; isplitr
              swap; · iexact HS1
              ipureintro; exact View.read_writes_of_cover _ _ _ _ _ (scoverC_1 m c t h0 h1 _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 m c t h0 h1 _ _)
        unfold owns; iexists _; isplitr
        swap; · iexact H7
        ipureintro; exact View.read_writes_of_cover _ _ _ _ _ (coverC_7 m c t h0 h1 _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t (fun h => h1 ((hcond1 t).mp h))) (noFlush6 t (fun h => h1 ((hcond1 t).mp h)))]
      rw [Dat.leavesExact_idle (dats m 0 c) 7 t (idle7 t (fun h => h1 ((hcond1 t).mp h))) (noFlush7 t (fun h => h1 ((hcond1 t).mp h)))]
      rw [outsAt_B m c t h0 h1]
      unfold stepB; (try dsimp only)
      have hz : t.val ≠ 0 := fun e => h0 (by rw [e])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverB_0 m c t h0 h1 _ _)
            · unfold owns; iexists _; isplitr
              swap; · iexact HS1
              ipureintro; exact View.read_writes_of_cover _ _ _ _ _ (scoverB_1 m c t h0 h1 _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at something. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

end Cert.Kernel.Hand

end
-- ==== Proof.KB.Launch.lean ====
/-
  The launch: @main's host operations before the region, the region over the proof data, the host operations after
  it. The array the first two windows share enters the region split into two half shares, one per window; the two
  result arrays leave it at what the write-backs made of them, and the host operations after the region run on
  them. The run ends with every array of the pipeline at its final contents, both argument arrays as launched, and the
  two results at the host operations' values.
-/
import proofs.«119346_j15221364097742_2_alg».proof.Proof.KB.Oblig

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays of the region, window by window -/

/-- The buffers behind the windows' arrays: seven, the first two windows being on one. -/
theorem arrImage : (Finset.univ.image (Pipeline.arrRef spec0) : Finset (Ref sig .tc))
    = [main_v0, main_v3, main_v4, main_v5, main_v6, main_v7_0, main_v7_1].toFinset := by decide

/-- The pipeline's arrays at contents Fw, each a whole buffer at its window's share. -/
theorem arrays_eq' (c : Dev nD) (Fw : (w : Fin cfg0.W) → Buf (Elt F) ((cfg0.win w).arr.view.loc (c.tc : Thread nD τ))) :
    (dats m 0 c).arrays Fw = bigSep Finset.univ fun w : Fin cfg0.W =>
      (((c.tc : Thread nD τ).loc (Pipeline.arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The seven buffers behind the arrays, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_v0) ↦{fullShare} Vv main_v0) ∗ (((c.tc : Thread nD τ).loc main_v3) ↦{fullShare} Vv main_v3)
          ∗ (((c.tc : Thread nD τ).loc main_v4) ↦{fullShare} Vv main_v4) ∗ (((c.tc : Thread nD τ).loc main_v5) ↦{fullShare} Vv main_v5)
          ∗ (((c.tc : Thread nD τ).loc main_v6) ↦{fullShare} Vv main_v6) ∗ (((c.tc : Thread nD τ).loc main_v7_0) ↦{fullShare} Vv main_v7_0)
          ∗ (((c.tc : Thread nD τ).loc main_v7_1) ↦{fullShare} Vv main_v7_1)) :=
  bigSep_eq_bigSepL_of_eq [main_v0, main_v3, main_v4, main_v5, main_v6, main_v7_0, main_v7_1] arrImage (by decide) _

/-- ENTRY: the seven buffers whole at the full share make the eight windows' arrays, the shared one split in two. -/
theorem hsplit (c : Dev nD) : (Pipeline.arrBufs spec0 c (V m c) : sProp 𝕄) ⊢ (dats m 0 c).arrays ((dats m 0 c).arrAt · 0) := by
  rw [arrays_eq', bigSep_W0, share0, share1, share2, share3, share4, share5, share6, share7]
  rw [arrBufs_eq]
  iintro ⟨H0, H3, H4, H5, H6, H70, H71⟩
  ihave H0' := (pointsTo_share (PosShare.mem_left_op_right fullShare)).1 $$ H0
  icases H0' with ⟨H0a, H0b⟩
  isplitl [H0a]; · iexact H0a
  isplitl [H0b]; · iexact H0b
  isplitl [H3]; · iexact H3
  isplitl [H4]; · iexact H4
  isplitl [H5]; · iexact H5
  isplitl [H6]; · iexact H6
  isplitl [H70]; · iexact H70
  iexact H71

/-! ## The host operations after the region -/

/-- A core's buffer contents when the region is left: the pipeline's arrays at their final contents, every other
    buffer as the region found it. -/
abbrev Wend (c : Dev nD) : Valuation τ sig (Elt F) :=
  Pipeline.withArrays spec0 c (V0 m c) fun w => (dats m 0 c).arrAt w cfg0.N
/-- And after the host operations that follow. -/
abbrev Wfin (c : Dev nD) (b : Ref sig .tc) : Buf (Elt F) ((c : Thread nD τ).loc b) :=
  StableHlo.after (List.flatten [hostOps1]) (Wend m c) (Proc.devRef .tc b)

/-- At a window whose array no other window is on, the exit contents are the array's final contents. -/
theorem Wend_arr (c : Dev nD) (w : Fin cfg0.W) (huniq : ∀ w', Pipeline.arrRef spec0 w' = Pipeline.arrRef spec0 w → w' = w) :
    Wend m c (Proc.devRef .tc (Pipeline.arrRef spec0 w)) = (dats m 0 c).arrAt w cfg0.N := by
  unfold Wend Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := huniq w' (Proc.devRef_injective _ e)
  rfl

/-- The buffers the later host operations touch. -/
def tailSet : Finset (DevRef τ sig) :=
  ([main_v7_0, main_v7_1, main_cst_0, main_v8, main_cst_1, main_v9, main_cst_2, main_v10, main_cst_3, main_v11] : List (Ref sig .tc)).toFinset.map ⟨Proc.devRef (sig := sig) .tc, Proc.devRef_injective _⟩

theorem mem_tailSet (r : Ref sig .tc) (h : r ∈ ([main_v7_0, main_v7_1, main_cst_0, main_v8, main_cst_1, main_v9, main_cst_2, main_v10, main_cst_3, main_v11] : List (Ref sig .tc)).toFinset) :
    Proc.devRef (τ := τ) .tc r ∈ tailSet := Finset.mem_map.mpr ⟨r, h, rfl⟩

theorem hostOps1_tail : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl
  all_goals
    intro b hb
    simp only [StableHlo.nullary_bufs, StableHlo.binary_bufs, Finset.mem_insert, Finset.mem_singleton] at hb
    first
      | (rcases hb with rfl | rfl | rfl <;> exact mem_tailSet _ (by decide))
      | (subst hb; exact mem_tailSet _ (by decide))

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The buffers the later host operations touch, held at a valuation, one by one. -/
theorem held_tail (c : Dev nD) (W : Valuation τ sig (Elt F)) :
    (StableHlo.held (c.tc : Thread nD τ) tailSet W : sProp 𝕄)
      = iprop((((c.tc : Thread nD τ).loc main_v7_0) ↦{fullShare} W (Proc.devRef .tc main_v7_0))
          ∗ (((c.tc : Thread nD τ).loc main_v7_1) ↦{fullShare} W (Proc.devRef .tc main_v7_1))
          ∗ (((c.tc : Thread nD τ).loc main_cst_0) ↦{fullShare} W (Proc.devRef .tc main_cst_0))
          ∗ (((c.tc : Thread nD τ).loc main_v8) ↦{fullShare} W (Proc.devRef .tc main_v8))
          ∗ (((c.tc : Thread nD τ).loc main_cst_1) ↦{fullShare} W (Proc.devRef .tc main_cst_1))
          ∗ (((c.tc : Thread nD τ).loc main_v9) ↦{fullShare} W (Proc.devRef .tc main_v9))
          ∗ (((c.tc : Thread nD τ).loc main_cst_2) ↦{fullShare} W (Proc.devRef .tc main_cst_2))
          ∗ (((c.tc : Thread nD τ).loc main_v10) ↦{fullShare} W (Proc.devRef .tc main_v10))
          ∗ (((c.tc : Thread nD τ).loc main_cst_3) ↦{fullShare} W (Proc.devRef .tc main_cst_3))
          ∗ (((c.tc : Thread nD τ).loc main_v11) ↦{fullShare} W (Proc.devRef .tc main_v11))) := by
  unfold StableHlo.held tailSet
  rw [bigSep_map, bigSep_eq_bigSepL_of_eq _ rfl (by decide)]
  rfl

theorem Wend6 (c : Dev nD) : Wend m c (Proc.devRef .tc main_v7_0) = (dats m 0 c).arrAt 6 cfg0.N := Wend_arr m c 6 (by decide)
theorem Wend7 (c : Dev nD) : Wend m c (Proc.devRef .tc main_v7_1) = (dats m 0 c).arrAt 7 cfg0.N := Wend_arr m c 7 (by decide)
theorem Wend_rest (c : Dev nD) (b : Ref sig .tc) (hb : ∀ w, Pipeline.arrRef spec0 w ≠ b) : Wend m c (Proc.devRef .tc b) = V m c b :=
  Pipeline.withArrays_of_ne spec0 c (V0 m c) _ b hb

/-- No later host operation writes a result array of the region. -/
theorem Wfin6 (c : Dev nD) : Wfin m c main_v7_0 = (dats m 0 c).arrAt 6 cfg0.N := by
  unfold Wfin
  rw [StableHlo.after_of_forall_not_mem (b := Proc.devRef .tc main_v7_0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))]
  exact Wend6 m c
theorem Wfin7 (c : Dev nD) : Wfin m c main_v7_1 = (dats m 0 c).arrAt 7 cfg0.N := by
  unfold Wfin
  rw [StableHlo.after_of_forall_not_mem (b := Proc.devRef .tc main_v7_1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))]
  exact Wend7 m c

/-- What the run keeps to read at the end: the two argument arrays and the two results. -/
def Zend (c : Dev nD) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_v9) ↦{fullShare} Wfin m c main_v9) ∗ (((c.tc : Thread nD τ).loc main_v11) ↦{fullShare} Wfin m c main_v11))

theorem back6 (c : Dev nD) : (((c.tc : Thread nD τ).loc main_v7_0) ↦{fullShare} StableHlo.after (List.flatten [hostOps1]) (Wend m c) (Proc.devRef .tc main_v7_0)) ⊢ ((((c.tc : Thread nD τ).loc main_v7_0) ↦{fullShare} (dats m 0 c).arrAt 6 cfg0.N) : sProp 𝕄) := by
  rw [show StableHlo.after (List.flatten [hostOps1]) (Wend m c) (Proc.devRef .tc main_v7_0) = (dats m 0 c).arrAt 6 cfg0.N from Wfin6 m c]; try exact .rfl
theorem back7 (c : Dev nD) : (((c.tc : Thread nD τ).loc main_v7_1) ↦{fullShare} StableHlo.after (List.flatten [hostOps1]) (Wend m c) (Proc.devRef .tc main_v7_1)) ⊢ ((((c.tc : Thread nD τ).loc main_v7_1) ↦{fullShare} (dats m 0 c).arrAt 7 cfg0.N) : sProp 𝕄) := by
  rw [show StableHlo.after (List.flatten [hostOps1]) (Wend m c) (Proc.devRef .tc main_v7_1) = (dats m 0 c).arrAt 7 cfg0.N from Wfin7 m c]; try exact .rfl

/-- The buffers the later host operations touch, as the region leaves them, are held at the exit contents. -/
theorem mk_pre (c : Dev nD) : iprop(boundary (c.tc : Thread nD τ) ∗ (((c.tc : Thread nD τ).loc main_v7_0) ↦{fullShare} (dats m 0 c).arrAt 6 cfg0.N) ∗ (((c.tc : Thread nD τ).loc main_v7_1) ↦{fullShare} (dats m 0 c).arrAt 7 cfg0.N) ∗ (((c.tc : Thread nD τ).loc main_cst_0) ↦{fullShare} V m c main_cst_0) ∗ (((c.tc : Thread nD τ).loc main_v8) ↦{fullShare} V m c main_v8) ∗ (((c.tc : Thread nD τ).loc main_cst_1) ↦{fullShare} V m c main_cst_1) ∗ (((c.tc : Thread nD τ).loc main_v9) ↦{fullShare} V m c main_v9) ∗ (((c.tc : Thread nD τ).loc main_cst_2) ↦{fullShare} V m c main_cst_2) ∗ (((c.tc : Thread nD τ).loc main_v10) ↦{fullShare} V m c main_v10) ∗ (((c.tc : Thread nD τ).loc main_cst_3) ↦{fullShare} V m c main_cst_3) ∗ (((c.tc : Thread nD τ).loc main_v11) ↦{fullShare} V m c main_v11))
      ⊢ (iprop(boundary (c.tc : Thread nD τ) ∗ StableHlo.held (c.tc : Thread nD τ) tailSet (Wend m c)) : sProp 𝕄) := by
    rw [held_tail, Wend6, Wend7, Wend_rest m c main_cst_0 (by decide), Wend_rest m c main_v8 (by decide), Wend_rest m c main_cst_1 (by decide), Wend_rest m c main_v9 (by decide), Wend_rest m c main_cst_2 (by decide), Wend_rest m c main_v10 (by decide), Wend_rest m c main_cst_3 (by decide), Wend_rest m c main_v11 (by decide)]
    try exact .rfl

set_option backward.isDefEq.respectTransparency.types false in
/-- EXIT and the host operations after the region: they run on the two result arrays and their own buffers. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain [StableHlo.seq hostOps1]) Q' := by
  rw [Pipeline.unscopedRestP_none, unscopedRest0_eq, arrays_eq', bigSep_W0, share0, share1, share2, share3, share4, share5, share6, share7]
  iintro ⟨Hk, Hb, ⟨A0, A1, A2, A3, A4, A5, A6, A7⟩, ⟨Harg0, Harg1, Hv1, Hcst, Hv2, Hcst0, Hv8, Hcst1, Hv9, Hcst2, Hv10, Hcst3, Hv11⟩⟩
  ihave Hpre := (mk_pre m c) $$ [Hb A6 A7 Hcst0 Hv8 Hcst1 Hv9 Hcst2 Hv10 Hcst3 Hv11]
  · isplitl [Hb]; · iexact Hb
    isplitl [A6]; · iexact A6
    isplitl [A7]; · iexact A7
    isplitl [Hcst0]; · iexact Hcst0
    isplitl [Hv8]; · iexact Hv8
    isplitl [Hcst1]; · iexact Hcst1
    isplitl [Hv9]; · iexact Hv9
    isplitl [Hcst2]; · iexact Hcst2
    isplitl [Hv10]; · iexact Hv10
    isplitl [Hcst3]; · iexact Hcst3
    iexact Hv11
  rw [← List.append_nil ([StableHlo.seq hostOps1] : List _), show ([StableHlo.seq hostOps1] : List (Prog _ PUnit)) = ([hostOps1] : List (List (HloOp τ sig (Elt F)))).map StableHlo.seq from rfl]
  iapply (Pipeline.wp_seqs_then (pcfgs (F := F)) defs₀ Variants.none c tailSet [] [hostOps1] hostOps1_tail sfx_fresh (Wend m c)) $$ Hpre
  iintro Hb
  rw [Pipeline.chain_nil, wp_pure, held_tail]
  imodintro
  iapply Hk
  icases Hb with ⟨-, A6, A7, -, -, -, Hv9, -, -, -, Hv11⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]
    · iapply (back6 m c)
      iexact A6
    · iapply (back7 m c)
      iexact A7
  unfold Zend
  isplitl [Harg0]; · iexact Harg0
  isplitl [Harg1]; · iexact Harg1
  isplitl [Hv9]; · iexact Hv9
  iexact Hv11

/-! ## The run -/

/-- What the run ends with, read per core. -/
def RunPost (r : PUnit × MemSt nD τ sig (Elt F)) : Prop :=
  ∀ c : Dev nD,
    (∀ w, r.2.mem ((cfg0.spec w).arr.view.loc (c.tc : Thread nD τ)) = (dats m 0 c).arrAt w cfg0.N)
    ∧ r.2.mem ((c.tc : Thread nD τ).loc main_arg0) = V m c main_arg0
    ∧ r.2.mem ((c.tc : Thread nD τ).loc main_arg1) = V m c main_arg1
    ∧ r.2.mem ((c.tc : Thread nD τ).loc main_v9) = Wfin m c main_v9
    ∧ r.2.mem ((c.tc : Thread nD τ).loc main_v11) = Wfin m c main_v11

set_option backward.isDefEq.respectTransparency.types false in
/-- At the compiled mesh, from any memory with zero counters: every weakly fair execution of @main terminates, no
    fault, in a state with the arguments as the region found them and the two results at the host operations' values. -/
theorem run_main : θ_run defs (onTc (τ := τ) (main (F := F))) (s₀ m ρ) (RunPost m) :=
  Pipeline.θ_run_region_pf_tail (pcfgs (F := F)) (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zend m)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg0) = V m c main_arg0
      ∧ s.mem ((c.tc : Thread nD τ).loc main_arg1) = V m c main_arg1
      ∧ s.mem ((c.tc : Thread nD τ).loc main_v9) = Wfin m c main_v9
      ∧ s.mem ((c.tc : Thread nD τ).loc main_v11) = Wfin m c main_v11)
    (hY := fun c s' => by
      unfold Zend
      iintro ⟨-, ⟨H0, H1, H9, H11⟩, HSI⟩
      icombine HSI H0 gives %h0
      icombine HSI H1 gives %h1
      icombine HSI H9 gives %h9
      icombine HSI H11 gives %h11
      imodintro
      isplitr; · ipureintro; exact ⟨Buf.eq_of_forall_mem_univ h0, Buf.eq_of_forall_mem_univ h1, Buf.eq_of_forall_mem_univ h9, Buf.eq_of_forall_mem_univ h11⟩
      iexact HSI)
    (hQ := fun s h => by unfold RunPost; exact fun c => ⟨(h c).1, (h c).2.2⟩)

end Cert.Kernel.Hand

end
-- ==== Proof.KB.Frame.lean ====
/-
  The frame: the run ends with both argument arrays as launched (no host operation writes them, and the region only
  reads the arrays made from them).
-/
import proofs.«119346_j15221364097742_2_alg».proof.Proof.KB.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.1.trans (V_main_arg1 m c)⟩) (run_main m ρ)

end Cert.Kernel.Hand

end
-- ==== Proof.KI.Runs.lean ====
/-
  What the runs of the kernel body share: the two conditions of the body's branches, decided over the grid
  (the first column tile of a row sweep resets the running maximum and minimum, the last one finishes the row
  tile), where the two result windows are idle, and the names of the staging buffers at a grid point.
-/
import proofs.«119346_j15221364097742_2_alg».proof.Proof.Gen.KernelIdeal.Launch
import proofs.«119346_j15221364097742_2_alg».proof.Proof.Gen.KernelIdeal.Skeleton
import proofs.«119346_j15221364097742_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The first branch is taken when the column coordinate is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The second branch is taken when the column coordinate is 3, the last. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem idle6 : ∀ t : Fin cfg0.N, ¬cond1 (grid0.coords t) → cfg0.idle 6 (grid0.coords t) = true := by decide +kernel
theorem idle7 : ∀ t : Fin cfg0.N, ¬cond1 (grid0.coords t) → cfg0.idle 7 (grid0.coords t) = true := by decide +kernel
theorem noFlush6 : ∀ t : Fin cfg0.N, ¬cond1 (grid0.coords t) → (cfg0.win 6).flush t = false := by decide +kernel
theorem noFlush7 : ∀ t : Fin cfg0.N, ¬cond1 (grid0.coords t) → (cfg0.win 7).flush t = false := by decide +kernel
theorem live6 : ∀ t : Fin cfg0.N, cond1 (grid0.coords t) → cfg0.idle 6 (grid0.coords t) = false := by decide +kernel
theorem live7 : ∀ t : Fin cfg0.N, cond1 (grid0.coords t) → cfg0.idle 7 (grid0.coords t) = false := by decide +kernel

/-! ## The staging buffers at a grid point -/

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4096 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1 .f32 := win0_7.stage (cfg0.slots t 7)
abbrev hs7 (t : Fin cfg0.N) : (ms7 t).IsWhole := hstage0_7 ((cfg0.slots t 7).cast nbuf0_7)
/-- The two scratch buffers the body keeps the running maximum and minimum in. -/
abbrev sc0 : Memref sig .tc .vmem S512x1 .f32 := Memref.whole cc0_scratch0
abbrev sc1 : Memref sig .tc .vmem S512x1 .f32 := Memref.whole cc0_scratch1
abbrev VS0 : View sig .tc .vmem S512x1 .f32 := sc0.view
abbrev VS1 : View sig .tc .vmem S512x1 .f32 := sc1.view
abbrev VO6 : View sig .tc .vmem S512x1 .f32 := (Memref.whole cc0_stg6_0 : Memref sig .tc .vmem S512x1 .f32).view
abbrev VO7 : View sig .tc .vmem S512x1 .f32 := (Memref.whole cc0_stg7_0 : Memref sig .tc .vmem S512x1 .f32).view

end Cert.KernelIdeal.Hand

end
-- ==== Proof.KI.RunB.lean ====
/-
  The kernel body at a grid point whose column coordinate is neither the first nor the last: neither branch is
  taken; the body loads its tiles, and overwrites the running maximum and minimum with their update.
-/
import proofs.«119346_j15221364097742_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run with neither branch taken: the inputs' buffers are kept, the two result buffers are handed back
    untouched, and each scratch buffer ends with the pieces the run finds written over it. -/
noncomputable def kernelRunB (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0 i) (hc1 : ¬cond1 i)
    (x0 : Vec F S512x1024 .bf16) (x1 : Vec F S4096x1024 .bf16) (x2 : Vec F S512x1 .f32) (x3 : Vec F S1x4096 .f32) (x4 : Vec F S512x1 .i32) (x5 : Vec F S1x4096 .i32) (xs0 xs1 : Vec F S512x1 .f32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.RunA.lean ====
/-
  The kernel body at a grid point whose column coordinate is the first: the first branch is taken (the running
  maximum and minimum are reset), the second is not.
-/
import proofs.«119346_j15221364097742_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the first column tile: the inputs' buffers are kept, the two result buffers are handed back
    untouched, and each scratch buffer, whatever it held, ends with the pieces the run finds written over it. -/
noncomputable def kernelRunA (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0 i) (hc1 : ¬cond1 i)
    (x0 : Vec F S512x1024 .bf16) (x1 : Vec F S4096x1024 .bf16) (x2 : Vec F S512x1 .f32) (x3 : Vec F S1x4096 .f32) (x4 : Vec F S512x1 .i32) (x5 : Vec F S1x4096 .i32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Hand

end
-- ==== Proof.KI.RunC.lean ====
/-
  The kernel body at a grid point whose column coordinate is the last: the first branch is not taken, the second
  is (the row tile's two results are computed from the finished running maximum and minimum and stored).
-/
import proofs.«119346_j15221364097742_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at the last column tile: the inputs' buffers are kept, and the two result buffers, whatever they
    held, and the two scratch buffers end with the pieces the run finds written over them. -/
noncomputable def kernelRunC (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x4096 .f32) (harg5 : arg5.IsWhole) (arg6 : Memref sig .tc .vmem S512x1 .i32) (harg6 : arg6.IsWhole) (arg7 : Memref sig .tc .vmem S1x4096 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0 i) (hc1 : cond1 i)
    (x0 : Vec F S512x1024 .bf16) (x1 : Vec F S4096x1024 .bf16) (x2 : Vec F S512x1 .f32) (x3 : Vec F S1x4096 .f32) (x4 : Vec F S512x1 .i32) (x5 : Vec F S1x4096 .i32) (xs0 xs1 : Vec F S512x1 .f32) :
    Σ' (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.Body.lean ====
/-
  The proof data of the one pipeline and the body obligation.

  At every grid point the six input windows' staging buffers hold their blocks of the arrays the region finds. The two
  scratch buffers carry the running maximum and minimum of a row tile from one column tile to the next: what they hold
  after each point is defined by recursion on the point (reset at the first column tile of a row sweep, updated at
  every tile); the two result windows are stored only at the last column tile of a row sweep and are idle elsewhere.
-/
import proofs.«119346_j15221364097742_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What is written for a result window at a point that stores nothing into it: never consulted. -/
def idleOut6 : Vec F S512x1 .f32 := VO6.read (Elt F) VO6.junk
def idleOut7 : Vec F S512x1 .f32 := VO7.read (Elt F) VO7.junk

/-- The first column tile of a row sweep: the scratch buffers are covered by the pieces written. -/
theorem scoverA_0 (c : Dev nD) (t : Fin cfg0.N) (h0 : t.val % 4 = 0) (h1 : ¬t.val % 4 = 3) (y : S512x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).1, y ∈ pc.1.set :=
  View.cover_of_tiledL _ S512x1.size (by sl_kernel_rfl) y
theorem scoverA_1 (c : Dev nD) (t : Fin cfg0.N) (h0 : t.val % 4 = 0) (h1 : ¬t.val % 4 = 3) (y : S512x1.Idx) :
    ∃ pc ∈ (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.1, y ∈ pc.1.set :=
  View.cover_of_tiledL _ S512x1.size (by sl_kernel_rfl) y

def stepA (c : Dev nD) (t : Fin cfg0.N) (h0 : t.val % 4 = 0) (h1 : ¬t.val % 4 = 3) : Vec F S512x1 .f32 × Vec F S512x1 .f32 × Vec F S512x1 .f32 × Vec F S512x1 .f32 :=
  (idleOut6, idleOut7,
   VS0.read (Elt F) (VS0.writes (Elt F) VS0.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).1),
   VS1.read (Elt F) (VS1.writes (Elt F) VS1.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.1))

/-- A middle column tile. -/
theorem scoverB_0 (c : Dev nD) (t : Fin cfg0.N) (h0 : ¬t.val % 4 = 0) (h1 : ¬t.val % 4 = 3) (p0 p1 : Vec F S512x1 .f32) (y : S512x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).1, y ∈ pc.1.set :=
  View.cover_of_tiledL _ S512x1.size (by sl_kernel_rfl) y
theorem scoverB_1 (c : Dev nD) (t : Fin cfg0.N) (h0 : ¬t.val % 4 = 0) (h1 : ¬t.val % 4 = 3) (p0 p1 : Vec F S512x1 .f32) (y : S512x1.Idx) :
    ∃ pc ∈ (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).2.1, y ∈ pc.1.set :=
  View.cover_of_tiledL _ S512x1.size (by sl_kernel_rfl) y

def stepB (c : Dev nD) (t : Fin cfg0.N) (h0 : ¬t.val % 4 = 0) (h1 : ¬t.val % 4 = 3) (p0 p1 : Vec F S512x1 .f32) : Vec F S512x1 .f32 × Vec F S512x1 .f32 × Vec F S512x1 .f32 × Vec F S512x1 .f32 :=
  (idleOut6, idleOut7,
   VS0.read (Elt F) (VS0.writes (Elt F) VS0.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).1),
   VS1.read (Elt F) (VS1.writes (Elt F) VS1.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) p0 p1).2.1))

/-- The last column tile. -/
theorem coverC_6 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).1, y ∈ pc.1.set :=
  View.cover_of_tiledL _ S512x1.size (by sl_kernel_rfl) y
theorem coverC_7 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.1, y ∈ pc.1.set :=
  View.cover_of_tiledL _ S512x1.size (by sl_kernel_rfl) y
theorem scoverC_0 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.1, y ∈ pc.1.set :=
  View.cover_of_tiledL _ S512x1.size (by sl_kernel_rfl) y
theorem scoverC_1 (c : Dev nD) (t : Fin cfg0.N) (h0 : ¬t.val % 4 = 0) (h1 : t.val % 4 = 3) (p0 p1 : Vec F S512x1 .f32) (y : S512x1.Idx) :
    ∃ pc ∈ (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.2.1, y ∈ pc.1.set :=
  View.cover_of_tiledL _ S512x1.size (by sl_kernel_rfl) y

def stepC (c : Dev nD) (t : Fin cfg0.N) (h0 : ¬t.val % 4 = 0) (h1 : t.val % 4 = 3) (p0 p1 : Vec F S512x1 .f32) : Vec F S512x1 .f32 × Vec F S512x1 .f32 × Vec F S512x1 .f32 × Vec F S512x1 .f32 :=
  (VO6.read (Elt F) (VO6.writes (Elt F) VO6.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).1),
   VO7.read (Elt F) (VO7.writes (Elt F) VO7.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.1),
   VS0.read (Elt F) (VS0.writes (Elt F) VS0.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.1),
   VS1.read (Elt F) (VS1.writes (Elt F) VS1.junk (kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) p0 p1).2.2.2.1))

/-! ## What the result windows and the scratch buffers hold after each point -/

/-- After the body at position n: the two result windows' staging buffers, then the two scratch buffers. -/
def outsAt (c : Dev nD) : (n : ℕ) → n < cfg0.N → Vec F S512x1 .f32 × Vec F S512x1 .f32 × Vec F S512x1 .f32 × Vec F S512x1 .f32
  | 0, hn => stepA m c ⟨0, hn⟩ (Nat.zero_mod _) (show ¬ (0 % 4 = 3) by decide)
  | n + 1, hn =>
    if h0 : (n + 1) % 4 = 0 then
      if h1 : (n + 1) % 4 = 3 then False.elim (by omega)
      else stepA m c ⟨n + 1, hn⟩ h0 h1
    else
      if h1 : (n + 1) % 4 = 3 then
        stepC m c ⟨n + 1, hn⟩ h0 h1 (outsAt c n (Nat.lt_of_succ_lt hn)).2.2.1 (outsAt c n (Nat.lt_of_succ_lt hn)).2.2.2
      else
        stepB m c ⟨n + 1, hn⟩ h0 h1 (outsAt c n (Nat.lt_of_succ_lt hn)).2.2.1 (outsAt c n (Nat.lt_of_succ_lt hn)).2.2.2

theorem outsAt_A (c : Dev nD) (t : Fin cfg0.N) (h0 : t.val % 4 = 0) (h1 : ¬t.val % 4 = 3) :
    outsAt m c t.val t.isLt = stepA m c t h0 h1 := by
  obtain ⟨n, hn⟩ := t
  cases n with
  | zero => rfl
  | succ n => exact (dif_pos h0).trans ((dif_neg h1).trans rfl)

theorem outsAt_B (c : Dev nD) (t : Fin cfg0.N) (h0 : ¬t.val % 4 = 0) (h1 : ¬t.val % 4 = 3) :
    outsAt m c t.val t.isLt = stepB m c t h0 h1 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 4 = 0) (h1 : t.val % 4 = 3) :
    outsAt m c t.val t.isLt = stepC m c t h0 h1 (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant between points -/

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before the first point the scratch buffers hold anything; afterwards what the point before left. -/
def PhiS (c : Dev nD) : (n : ℕ) → n ≤ cfg0.N → sProp 𝕄
  | 0, _ => Pipeline.ΦA spec0 c
  | n + 1, hn => iprop(iprop(owns (c : Thread nD τ) sc0 fullShare ((outsAt m c n hn).2.2.1) ∗ owns (c : Thread nD τ) sc1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare ((outsAt m c n hn).2.2.1) ∗ owns (c : Thread nD τ) sc1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) sc0 fullShare ((outsAt m c (n - 1) (by omega)).2.2.1) ∗ owns (c : Thread nD τ) sc1 fullShare ((outsAt m c (n - 1) (by omega)).2.2.2)) ∗ (∃ r, prngReg c r)) := by
  cases n with
  | zero => exact absurd rfl hz
  | succ n => rfl

/-! ## The proof data -/

/-- The arrays as the region finds them; after the body each input's buffer at its block, the result windows' at
    `outsAt`; the array the two first windows share is held by each at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.KernelIdeal.Hand

end
-- ==== Proof.KI.Pieces.lean ====
/-
  What each run of the body leaves, as terms over the body's payloads.

  At a grid point the body loads the row tile (512 rows, their squared norms and labels) whole, and from the resident
  column arrays the 1024 rows, squared norms and labels of the point's column tile, at the row offset 1024 times the
  column coordinate. The tile's contributions to the running maximum and minimum are the two mined values of these
  loads; each scratch buffer ends with the update of what it held (or of the reset value at the first column tile) by
  the contribution, and at the last column tile the two result buffers end with the row losses and the precision
  indicators of the two updated buffers.
-/
import proofs.«119346_j15221364097742_2_alg».proof.Proof.KI.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## The loaded tiles -/

/-- The column tile's 1024 rows, read off the resident array of all rows. -/
def tile6 (c : Dev nD) (t : Fin cfg0.N) : Vec F S1024x1024 .bf16 :=
  View.ld (Val := Elt F) (S := S4096x1024) (e' := .bf16) (iblk m c 1 t)
    (Rect.unit (s := S4096x1024) (k0_off1 (grid0.coords t)) S1024x1024.size (k0_off1_inb (grid0.coords t)))

/-- The column tile's squared norms, read off the resident row of all squared norms. -/
def tile9 (c : Dev nD) (t : Fin cfg0.N) : Vec F S1x1024 .f32 :=
  View.ld (Val := Elt F) (S := S1x4096) (e' := .f32) (iblk m c 3 t)
    (Rect.unit (s := S1x4096) (k0_off2 (grid0.coords t)) S1x1024.size (k0_off2_inb (grid0.coords t)))

/-- The column tile's labels, read off the resident row of all labels. -/
def tile12 (c : Dev nD) (t : Fin cfg0.N) : Vec F S1x1024 .i32 :=
  View.ld (Val := Elt F) (S := S1x4096) (e' := .i32) (iblk m c 5 t)
    (Rect.unit (s := S1x4096) (k0_off2 (grid0.coords t)) S1x1024.size (k0_off2_inb (grid0.coords t)))

/-- The point's contribution to the running maximum and to the running minimum. -/
def mx (c : Dev nD) (t : Fin cfg0.N) : Vec F S512x1 .f32 :=
  k0_pay11 (tile6 m c t) (tile9 m c t) (tile12 m c t) (iblk m c 0 t) (iblk m c 2 t) (iblk m c 4 t)
def mn (c : Dev nD) (t : Fin cfg0.N) : Vec F S512x1 .f32 :=
  k0_pay12 (tile6 m c t) (tile9 m c t) (tile12 m c t) (iblk m c 0 t) (iblk m c 2 t) (iblk m c 4 t)

/-! ## A middle column tile -/

theorem stepB_s0 (c : Dev nD) (t : Fin cfg0.N) (h0 : ¬t.val % 4 = 0) (h1 : ¬t.val % 4 = 3) (p0 p1 : Vec F S512x1 .f32) :
    (stepB m c t h0 h1 p0 p1).2.2.1 = k0_pay1 (mx m c t) p0 := by
  unfold stepB
  dsimp only
  rw [View.read_writes_eq_canon _ _ _ (scoverB_0 m c t h0 h1 p0 p1)]
  unfold kernelRunB
  dsimp only
  sl_unfold_words
  rw [View.canon_unit_zero hz2]
  simp only [View.readAt_eq_ld, Memref.IsWhole.read_unread, View.ld_unit_zero (S := S512x1024) hz2,
    View.ld_unit_zero (S := S512x1) hz2]
  exact congrArg (k0_pay1 (mx m c t)) ((Memref.isWhole_whole _ : (sc0 : Memref sig .tc .vmem S512x1 .f32).IsWhole).read_unread p0)

theorem stepB_s1 (c : Dev nD) (t : Fin cfg0.N) (h0 : ¬t.val % 4 = 0) (h1 : ¬t.val % 4 = 3) (p0 p1 : Vec F S512x1 .f32) :
    (stepB m c t h0 h1 p0 p1).2.2.2 = k0_pay2 (mn m c t) p1 := by
  unfold stepB
  dsimp only
  rw [View.read_writes_eq_canon _ _ _ (scoverB_1 m c t h0 h1 p0 p1)]
  unfold kernelRunB
  dsimp only
  sl_unfold_words
  rw [View.canon_unit_zero hz2]
  simp only [View.readAt_eq_ld, Memref.IsWhole.read_unread, View.ld_unit_zero (S := S512x1024) hz2,
    View.ld_unit_zero (S := S512x1) hz2]
  exact congrArg (k0_pay2 (mn m c t)) ((Memref.isWhole_whole _ : (sc1 : Memref sig .tc .vmem S512x1 .f32).IsWhole).read_unread p1)

/-! ## The first column tile of a row sweep -/

theorem stepA_s0 (c : Dev nD) (t : Fin cfg0.N) (h0 : t.val % 4 = 0) (h1 : ¬t.val % 4 = 3) :
    (stepA m c t h0 h1).2.2.1 = k0_pay1 (mx m c t) k0_pay7 := by
  unfold stepA
  dsimp only
  rw [View.read_writes_eq_canon _ _ _ (scoverA_0 m c t h0 h1)]
  unfold kernelRunA
  dsimp only
  sl_unfold_words
  rw [View.canon_cons_unit_zero (S := S512x1) hz2, View.readCov_unit_zero (S := S512x1) _ hz2]
  simp only [View.readAt_eq_ld, Memref.IsWhole.read_unread, View.ld_unit_zero (S := S512x1024) hz2,
    View.ld_unit_zero (S := S512x1) hz2]
  rfl

theorem stepA_s1 (c : Dev nD) (t : Fin cfg0.N) (h0 : t.val % 4 = 0) (h1 : ¬t.val % 4 = 3) :
    (stepA m c t h0 h1).2.2.2 = k0_pay2 (mn m c t) k0_pay8 := by
  unfold stepA
  dsimp only
  rw [View.read_writes_eq_canon _ _ _ (scoverA_1 m c t h0 h1)]
  unfold kernelRunA
  dsimp only
  sl_unfold_words
  rw [View.canon_cons_unit_zero (S := S512x1) hz2, View.readCov_unit_zero (S := S512x1) _ hz2]
  simp only [View.readAt_eq_ld, Memref.IsWhole.read_unread, View.ld_unit_zero (S := S512x1024) hz2,
    View.ld_unit_zero (S := S512x1) hz2]
  rfl

/-! ## The last column tile -/

theorem stepC_s0 (c : Dev nD) (t : Fin cfg0.N) (h0 : ¬t.val % 4 = 0) (h1 : t.val % 4 = 3) (p0 p1 : Vec F S512x1 .f32) :
    (stepC m c t h0 h1 p0 p1).2.2.1 = k0_pay1 (mx m c t) p0 := by
  unfold stepC
  dsimp only
  rw [View.read_writes_eq_canon _ _ _ (scoverC_0 m c t h0 h1 p0 p1)]
  unfold kernelRunC
  dsimp only
  sl_unfold_words
  rw [View.canon_unit_zero hz2]
  simp only [View.readAt_eq_ld, Memref.IsWhole.read_unread, View.ld_unit_zero (S := S512x1024) hz2,
    View.ld_unit_zero (S := S512x1) hz2]
  first
    | rfl
    | exact congrArg (k0_pay1 (mx m c t)) ((Memref.isWhole_whole _ : (sc0 : Memref sig .tc .vmem S512x1 .f32).IsWhole).read_unread p0)

theorem stepC_s1 (c : Dev nD) (t : Fin cfg0.N) (h0 : ¬t.val % 4 = 0) (h1 : t.val % 4 = 3) (p0 p1 : Vec F S512x1 .f32) :
    (stepC m c t h0 h1 p0 p1).2.2.2 = k0_pay2 (mn m c t) p1 := by
  unfold stepC
  dsimp only
  rw [View.read_writes_eq_canon _ _ _ (scoverC_1 m c t h0 h1 p0 p1)]
  unfold kernelRunC
  dsimp only
  sl_unfold_words
  rw [View.canon_unit_zero hz2]
  simp only [View.readAt_eq_ld, Memref.IsWhole.read_unread, View.ld_unit_zero (S := S512x1024) hz2,
    View.ld_unit_zero (S := S512x1) hz2]
  first
    | rfl
    | exact congrArg (k0_pay2 (mn m c t)) ((Memref.isWhole_whole _ : (sc1 : Memref sig .tc .vmem S512x1 .f32).IsWhole).read_unread p1)

theorem stepC_o6 (c : Dev nD) (t : Fin cfg0.N) (h0 : ¬t.val % 4 = 0) (h1 : t.val % 4 = 3) (p0 p1 : Vec F S512x1 .f32) :
    (stepC m c t h0 h1 p0 p1).1 = k0_pay5 (k0_pay1 (mx m c t) p0) (k0_pay2 (mn m c t) p1) := by
  unfold stepC
  dsimp only
  rw [View.read_writes_eq_canon _ _ _ (coverC_6 m c t h0 h1 p0 p1)]
  unfold kernelRunC
  dsimp only
  sl_unfold_words
  rw [View.canon_unit_zero hz2, View.readCov_unit_zero (S := S512x1) sc0.view hz2,
    View.readCov_unit_zero (S := S512x1) sc1.view hz2]
  simp only [View.readAt_eq_ld, Memref.IsWhole.read_unread, View.ld_unit_zero (S := S512x1024) hz2,
    View.ld_unit_zero (S := S512x1) hz2]
  exact congrArg₂ (fun a b => k0_pay5 (k0_pay1 (mx m c t) a) (k0_pay2 (mn m c t) b))
    ((Memref.isWhole_whole _ : (sc0 : Memref sig .tc .vmem S512x1 .f32).IsWhole).read_unread p0)
    ((Memref.isWhole_whole _ : (sc1 : Memref sig .tc .vmem S512x1 .f32).IsWhole).read_unread p1)

theorem stepC_o7 (c : Dev nD) (t : Fin cfg0.N) (h0 : ¬t.val % 4 = 0) (h1 : t.val % 4 = 3) (p0 p1 : Vec F S512x1 .f32) :
    (stepC m c t h0 h1 p0 p1).2.1 = k0_pay6 (k0_pay1 (mx m c t) p0) (k0_pay2 (mn m c t) p1) := by
  unfold stepC
  dsimp only
  rw [View.read_writes_eq_canon _ _ _ (coverC_7 m c t h0 h1 p0 p1)]
  unfold kernelRunC
  dsimp only
  sl_unfold_words
  rw [View.canon_unit_zero hz2, View.readCov_unit_zero (S := S512x1) sc0.view hz2,
    View.readCov_unit_zero (S := S512x1) sc1.view hz2]
  simp only [View.readAt_eq_ld, Memref.IsWhole.read_unread, View.ld_unit_zero (S := S512x1024) hz2,
    View.ld_unit_zero (S := S512x1) hz2]
  exact congrArg₂ (fun a b => k0_pay6 (k0_pay1 (mx m c t) a) (k0_pay2 (mn m c t) b))
    ((Memref.isWhole_whole _ : (sc0 : Memref sig .tc .vmem S512x1 .f32).IsWhole).read_unread p0)
    ((Memref.isWhole_whole _ : (sc1 : Memref sig .tc .vmem S512x1 .f32).IsWhole).read_unread p1)

/-! ## The loaded tiles at an entry -/

/-- The column coordinate of a grid point is its number modulo 4. -/
theorem coords1 : ∀ t : Fin cfg0.N, ((grid0.coords t) 1).val = t.val % 4 :=
  (by decide +kernel : ∀ t : Fin grid0.N, ((grid0.coords t) 1).val = t.val % 4)

/-- The row offset of the column tile: 1024 times the column coordinate. -/
theorem off1_eq (t : Fin cfg0.N) : k0_off1 (grid0.coords t) = ![1024 * (t.val % 4), 0] := by
  rw [k0_off1_eq, coords1 t]
theorem off2_eq (t : Fin cfg0.N) : k0_off2 (grid0.coords t) = ![0, 1024 * (t.val % 4)] := by
  rw [k0_off2_eq, coords1 t]

open Idealize.ShloMosaic.ValueIdx in
/-- Row q of the column tile is row 1024 * (column coordinate) + q of the resident array. -/
theorem tile6_apply (c : Dev nD) (t : Fin cfg0.N) (q k : Fin 1024) :
    tile6 m c t (ix2 q k)
      = (iblk m c 1 t : Vec F S4096x1024 .bf16) (ix2 (⟨1024 * (t.val % 4) + q.val, by have := q.isLt; omega⟩ : Fin 4096) k) := by
  unfold tile6
  refine congrArg (iblk m c 1 t : Vec F S4096x1024 .bf16) (funext fun a => Fin.ext ?_)
  match a with
  | ⟨0, _⟩ =>
    show k0_off1 (grid0.coords t) 0 + 1 * q.val = 1024 * (t.val % 4) + q.val
    rw [off1_eq]
    show 1024 * (t.val % 4) + 1 * q.val = 1024 * (t.val % 4) + q.val
    omega
  | ⟨1, _⟩ =>
    show k0_off1 (grid0.coords t) 1 + 1 * k.val = k.val
    rw [off1_eq]
    show 0 + 1 * k.val = k.val
    omega

open Idealize.ShloMosaic.ValueIdx in
/-- Entry q of the column tile's squared norms is entry 1024 * (column coordinate) + q of the resident row. -/
theorem tile9_apply (c : Dev nD) (t : Fin cfg0.N) (q : Fin 1024) :
    tile9 m c t (ix2 (0 : Fin 1) q)
      = (iblk m c 3 t : Vec F S1x4096 .f32) (ix2 (0 : Fin 1) (⟨1024 * (t.val % 4) + q.val, by have := q.isLt; omega⟩ : Fin 4096)) := by
  unfold tile9
  refine congrArg (iblk m c 3 t : Vec F S1x4096 .f32) (funext fun a => Fin.ext ?_)
  match a with
  | ⟨0, _⟩ =>
    show k0_off2 (grid0.coords t) 0 + 1 * 0 = 0
    rw [off2_eq]
    rfl
  | ⟨1, _⟩ =>
    show k0_off2 (grid0.coords t) 1 + 1 * q.val = 1024 * (t.val % 4) + q.val
    rw [off2_eq]
    show 1024 * (t.val % 4) + 1 * q.val = 1024 * (t.val % 4) + q.val
    omega

open Idealize.ShloMosaic.ValueIdx in
/-- Entry q of the column tile's labels is entry 1024 * (column coordinate) + q of the resident row. -/
theorem tile12_apply (c : Dev nD) (t : Fin cfg0.N) (q : Fin 1024) :
    tile12 m c t (ix2 (0 : Fin 1) q)
      = (iblk m c 5 t : Vec F S1x4096 .i32) (ix2 (0 : Fin 1) (⟨1024 * (t.val % 4) + q.val, by have := q.isLt; omega⟩ : Fin 4096)) := by
  unfold tile12
  refine congrArg (iblk m c 5 t : Vec F S1x4096 .i32) (funext fun a => Fin.ext ?_)
  match a with
  | ⟨0, _⟩ =>
    show k0_off2 (grid0.coords t) 0 + 1 * 0 = 0
    rw [off2_eq]
    rfl
  | ⟨1, _⟩ =>
    show k0_off2 (grid0.coords t) 1 + 1 * q.val = 1024 * (t.val % 4) + q.val
    rw [off2_eq]
    show 1024 * (t.val % 4) + 1 * q.val = 1024 * (t.val % 4) + q.val
    omega

end Cert.KernelIdeal.Hand

end
-- ==== Proof.Spec.lean ====
/-
  The mathematics both programs compute, stated once on the extended reals.

  For an array x of 4096 rows of 1024 numbers and 4096 labels t:
  * sq i is the squared norm of row i, d2 i j = (sq i + sq j) - 2 * <row i, row j> the squared distance of rows i, j;
  * two rows are alike when their labels are equal words;
  * ap2 i is the largest squared distance from row i to a row alike to it, an2 i the smallest to a row not alike
    (the fold of max from -inf / of min from +inf over all 4096 rows, the other rows replaced by -inf / +inf);
  * root v = sqrt (max v eps) turns a squared distance into a clipped distance;
  * lossRow and precRow are the margin loss and the precision indicator of one row, and the two results are the
    sums of those over the rows, each divided by 4096.
-/
import Idealize.ShloMosaic.Lib.ValueIdx
import Idealize.ShloMosaic.PureOps.Ideal.Laws

noncomputable section

open scoped BigOperators

namespace Cert.Spec

open Idealize.ShloMosaic Idealize.ShloMosaic.ValueIdx

/-- The array of points and the labels. -/
abbrev Pts := (⟨2, ![4096, 1024]⟩ : Shape).Idx → EReal
abbrev Labels := (⟨1, ![4096]⟩ : Shape).Idx → BitVec 32

/-- The literals, kept as the words both programs print. -/
def eps : EReal := Ideal.ofBits .f32 0x2B8CBCCC#32
def margin : EReal := Ideal.ofBits .f32 0x3E99999A#32
def two : EReal := Ideal.ofBits .f32 0x40000000#32
def zero : EReal := Ideal.ofBits .f32 0x00000000#32
def n4096 : EReal := Ideal.ofBits .f32 0x45800000#32

/-- The squared norm of row i, as a sum started from the zero word. -/
def sq (x : Pts) (i : Fin 4096) : EReal := zero + ∑ k : Fin 1024, x (ix2 i k) * x (ix2 i k)

/-- The inner product of rows i and j. -/
def inner (x : Pts) (i j : Fin 4096) : EReal := ∑ k : Fin 1024, x (ix2 i k) * x (ix2 j k)

/-- The squared distance of rows i and j. -/
def d2 (x : Pts) (i j : Fin 4096) : EReal := (sq x i + sq x j) - two * inner x i j

/-- Rows i and j carry the same label. -/
def alike (t : Labels) (i j : Fin 4096) : Prop := t (ix1 i) = t (ix1 j)

instance (t : Labels) (i j : Fin 4096) : Decidable (alike t i j) := by unfold alike; infer_instance

/-- The largest squared distance from row i to a row with its label. -/
def ap2 (x : Pts) (t : Labels) (i : Fin 4096) : EReal :=
  (Finset.univ : Finset (Fin 4096)).fold max ⊥ fun j => if alike t i j then d2 x i j else ⊥

/-- The smallest squared distance from row i to a row with another label. -/
def an2 (x : Pts) (t : Labels) (i : Fin 4096) : EReal :=
  (Finset.univ : Finset (Fin 4096)).fold min ⊤ fun j => if alike t i j then ⊤ else d2 x i j

/-- A squared distance clipped below at eps, then its square root. -/
def root (v : EReal) : EReal := Ideal.sqrt (max v eps)

/-- One row's margin loss from its two mined distances. -/
def lossRow (an ap : EReal) : EReal := max (margin - (an - ap)) zero

/-- One row's precision indicator: 1 when the negative is farther than the positive. -/
def precRow (an ap : EReal) : EReal := if ap < an then 1 else 0

/-- The mined distances of row i. -/
def apD (x : Pts) (t : Labels) (i : Fin 4096) : EReal := root (ap2 x t i)
def anD (x : Pts) (t : Labels) (i : Fin 4096) : EReal := root (an2 x t i)

/-- The two results: the mean loss and the mean precision. -/
def lossOut (x : Pts) (t : Labels) : EReal :=
  Ideal.div (zero + ∑ i : Fin 4096, lossRow (anD x t i) (apD x t i)) n4096
def precOut (x : Pts) (t : Labels) : EReal :=
  Ideal.div (zero + ∑ i : Fin 4096, precRow (anD x t i) (apD x t i)) n4096

end Cert.Spec

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.KI.ArrVals.lean ====
/-
  The arrays the region's windows read, at the ideal values, read at an index.

  Before the region the host computes, from the points x (4096 rows of 1024 numbers) and the labels t:
  * the points again (a change of format, the identity on extended reals);
  * the squared norm of every row, the zero word plus the sum of the row's squares, once as a column and once as a row;
  * the labels once as a column and once as a row.
  The first part reads each of those arrays at an index. The second part reads each window's block at a grid point
  (8 row tiles of 512 rows by 4 column tiles; point t is row tile t / 4): windows 0, 2 and 4 hold rows
  512 * (t / 4) ... 512 * (t / 4) + 511 of their array, windows 1, 3 and 5 the whole array.
-/
import proofs.«119346_j15221364097742_2_alg».proof.Proof.KI.Body
import proofs.«119346_j15221364097742_2_alg».proof.Proof.Spec
import proofs.«119346_j15221364097742_2_alg».proof.Proof.LibHostRowSum
import proofs.«119346_j15221364097742_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The arguments -/

/-- The points and the labels as @main receives them. -/
abbrev xOf (c : Dev nD) : Cert.Spec.Pts := m ((c : Thread nD τ).loc main_arg0)
abbrev tlOf (c : Dev nD) : Cert.Spec.Labels := m ((c : Thread nD τ).loc main_arg1)

/-! ## The host operations before the region -/

/-- The vector of squared norms the host sums: the zero word plus each row's sum of squares. -/
abbrev sqVec (c : Dev nD) : S4096.Idx → EReal :=
  Host.reduceAdd (mulf (xOf m c) (xOf m c) : FVec Ideal S4096x1024 .f32) (constant (F := Ideal) S_ .f32 0x00000000#32)
    reducesTo_S4096x1024_S4096_d1 h_S_

/-- That vector made a column. -/
abbrev sqCol (c : Dev nD) : S4096x1.Idx → EReal := broadcastInDim S4096x1 ![0] bcast_S4096_S4096x1_0 (sqVec m c)

theorem v0_eq (c : Dev nD) :
    (V m c main_v0 : S4096x1024.Idx → EReal) = (truncf .bf16 (xOf m c) bitsLt_bf16_f32 : FVec Ideal S4096x1024 .bf16) := by
  dsimp only [V, V0]
  simp only [hostOps0, List.flatten_cons, List.flatten_nil, List.append_nil]
  after_results <;> rfl

theorem v3_eq (c : Dev nD) : (V m c main_v3 : S4096x1.Idx → EReal) = sqCol m c := by
  dsimp only [V, V0]
  simp only [hostOps0, List.flatten_cons, List.flatten_nil, List.append_nil]
  after_results <;> rfl

theorem v4_eq (c : Dev nD) :
    (V m c main_v4 : S1x4096.Idx → EReal) = shapeCast S1x4096 (sqCol m c) shapeCasts_S4096x1_S1x4096 := by
  dsimp only [V, V0]
  simp only [hostOps0, List.flatten_cons, List.flatten_nil, List.append_nil]
  after_results <;> rfl

theorem v5_eq (c : Dev nD) :
    (V m c main_v5 : S4096x1.Idx → BitVec 32) = shapeCast S4096x1 (tlOf m c) shapeCasts_S4096_S4096x1 := by
  dsimp only [V, V0]
  simp only [hostOps0, List.flatten_cons, List.flatten_nil, List.append_nil]
  after_results <;> rfl

theorem v6_eq (c : Dev nD) :
    (V m c main_v6 : S1x4096.Idx → BitVec 32) = shapeCast S1x4096 (tlOf m c) shapeCasts_S4096_S1x4096 := by
  dsimp only [V, V0]
  simp only [hostOps0, List.flatten_cons, List.flatten_nil, List.append_nil]
  after_results <;> rfl

/-- The column of squared norms at row i is the squared norm of row i. -/
theorem sqCol_apply (c : Dev nD) (i : Fin 4096) : sqCol m c (ix2 i (0 : Fin 1)) = Cert.Spec.sq (xOf m c) i := by
  have hb : sqCol m c (ix2 i (0 : Fin 1)) = sqVec m c (ix1 i) := by
    refine broadcastInDim_apply _ bcast_S4096_S4096x1_0 (sqVec m c) (ix2 i (0 : Fin 1)) (ix1 i) (fun a => ?_)
    match a with
    | ⟨0, _⟩ =>
      show i.val = if (4096 : Nat) = 1 then 0 else i.val
      rw [if_neg (by decide)]
  rw [hb]
  show Host.reduceAdd _ _ _ _ (ix1 i) = _
  rw [Cert.Lib.HostRowSum.hostRowSum_apply _ _ reducesTo_S4096x1024_S4096_d1 h_S_ (by decide) i]
  rfl

/-- The array window 0 and window 1 read is the points. -/
theorem v0_apply (c : Dev nD) (i : Fin 4096) (k : Fin 1024) :
    (V m c main_v0 : S4096x1024.Idx → EReal) (ix2 i k) = xOf m c (ix2 i k) := by
  rw [v0_eq]; rfl

/-- The array window 2 reads is the column of squared norms. -/
theorem v3_apply (c : Dev nD) (i : Fin 4096) :
    (V m c main_v3 : S4096x1.Idx → EReal) (ix2 i (0 : Fin 1)) = Cert.Spec.sq (xOf m c) i := by
  rw [v3_eq]; exact sqCol_apply m c i

/-- The array window 3 reads is the row of squared norms. -/
theorem v4_apply (c : Dev nD) (j : Fin 4096) :
    (V m c main_v4 : S1x4096.Idx → EReal) (ix2 (0 : Fin 1) j) = Cert.Spec.sq (xOf m c) j := by
  rw [v4_eq]
  rw [shapeCast_apply (sqCol m c) shapeCasts_S4096x1_S1x4096 (ix2 (0 : Fin 1) j) (ix2 j (0 : Fin 1)) (by
    rw [Shape.rowMajor_val_two, Shape.rowMajor_val_two]
    show j.val * 1 + 0 = 0 * 4096 + j.val
    omega)]
  exact sqCol_apply m c j

/-- The array window 4 reads is the column of labels. -/
theorem v5_apply (c : Dev nD) (i : Fin 4096) :
    (V m c main_v5 : S4096x1.Idx → BitVec 32) (ix2 i (0 : Fin 1)) = tlOf m c (ix1 i) := by
  rw [v5_eq]
  exact Cert.Lib.Column.col_apply (tlOf m c) shapeCasts_S4096_S4096x1 i

/-- The array window 5 reads is the row of labels. -/
theorem v6_apply (c : Dev nD) (j : Fin 4096) :
    (V m c main_v6 : S1x4096.Idx → BitVec 32) (ix2 (0 : Fin 1) j) = tlOf m c (ix1 j) := by
  rw [v6_eq]
  exact shapeCast_apply (tlOf m c) shapeCasts_S4096_S1x4096 (ix2 (0 : Fin 1) j) (ix1 j) (by
    rw [Shape.rowMajor_val_one, Shape.rowMajor_val_two]
    show j.val = 0 * 4096 + j.val
    omega)

end Cert.KernelIdeal.HandVal

end
-- ==== Proof.KI.BlkVals.lean ====
/-
  Each window's block at a grid point, read at an index.

  The grid is 8 row tiles of 512 rows by 4 column tiles; point t is row tile t / 4. Windows 0, 2 and 4 hold rows
  512 * (t / 4) ... 512 * (t / 4) + 511 of their array (the points, the column of squared norms, the column of labels);
  windows 1, 3 and 5 hold their whole array (the points, the row of squared norms, the row of labels). With the arrays
  read at an index, every block entry is an entry of the points, a squared norm of a row, or a label.
-/
import proofs.«119346_j15221364097742_2_alg».proof.Proof.KI.ArrVals

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The windows' blocks -/

/-- The grid has 32 points. -/
theorem tval_lt (t : Fin cfg0.N) : t.val < 32 := by
  exact lt_of_lt_of_eq t.isLt (N_0 : cfg0.N = 32)

/-- Row p of row tile t / 4, as a row of the whole array. -/
abbrev rowOf (t : Fin cfg0.N) (p : Fin 512) : Fin 4096 :=
  ⟨512 * (t.val / 4) + p.val, by have := tval_lt t; have := p.isLt; omega⟩

/-- The printed index maps, decided once over the grid: windows 0, 2 and 4 are at row block t / 4, column block 0;
    windows 1, 3 and 5 stay at block (0, 0). -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ win0_5.index t (0 : Fin 2) = 0 ∧ win0_5.index t (1 : Fin 2) = 0 :=
  (by decide +kernel : ∀ t : Fin grid0.N, _)

/-- Window 0's block at point t is rows 512 * (t / 4) ... of its array. -/
theorem iblk0_apply (c : Dev nD) (t : Fin cfg0.N) (p : Fin 512) (k : Fin 1024) :
    (iblk m c 0 t : S512x1024.Idx → EReal) (ix2 p k) = (V m c main_v0 : S4096x1024.Idx → EReal) (ix2 (rowOf t p) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = 512 * (t.val / 4) + p.val; rw [e0]; omega
  | ⟨1, _⟩ => show win0_0.index t (1 : Fin 2) * 1024 + 1 * k.val = k.val; rw [e1]; omega

/-- Window 1's block is its whole array. -/
theorem iblk1_apply (c : Dev nD) (t : Fin cfg0.N) (j : Fin 4096) (k : Fin 1024) :
    (iblk m c 1 t : S4096x1024.Idx → EReal) (ix2 j k) = (V m c main_v0 : S4096x1024.Idx → EReal) (ix2 j k) := by
  obtain ⟨-, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 4096 + 1 * j.val = j.val; rw [e0]; omega
  | ⟨1, _⟩ => show win0_1.index t (1 : Fin 2) * 1024 + 1 * k.val = k.val; rw [e1]; omega

/-- Window 2's block at point t is rows 512 * (t / 4) ... of its column. -/
theorem iblk2_apply (c : Dev nD) (t : Fin cfg0.N) (p : Fin 512) :
    (iblk m c 2 t : S512x1.Idx → EReal) (ix2 p (0 : Fin 1)) = (V m c main_v3 : S4096x1.Idx → EReal) (ix2 (rowOf t p) (0 : Fin 1)) := by
  obtain ⟨-, -, -, -, e0, e1, -⟩ := idx_facts t
  unfold iblk
  rw [View.read_apply]
  show V m c main_v3 _ = V m c main_v3 _
  congr 1
  funext a
  apply Fin.ext
  match a with
  | ⟨0, _⟩ => show win0_2.index t (0 : Fin 2) * 512 + 1 * p.val = 512 * (t.val / 4) + p.val; rw [e0]; omega
  | ⟨1, _⟩ => show win0_2.index t (1 : Fin 2) * 1 + 1 * 0 = 0; rw [e1]

/-- Window 3's block is its whole row. -/
theorem iblk3_apply (c : Dev nD) (t : Fin cfg0.N) (j : Fin 4096) :
    (iblk m c 3 t : S1x4096.Idx → EReal) (ix2 (0 : Fin 1) j) = (V m c main_v4 : S1x4096.Idx → EReal) (ix2 (0 : Fin 1) j) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_3.index t (0 : Fin 2) * 1 + 1 * 0 = 0; rw [e0]
  | ⟨1, _⟩ => show win0_3.index t (1 : Fin 2) * 4096 + 1 * j.val = j.val; rw [e1]; omega

/-- Window 4's block at point t is rows 512 * (t / 4) ... of its column. -/
theorem iblk4_apply (c : Dev nD) (t : Fin cfg0.N) (p : Fin 512) :
    (iblk m c 4 t : S512x1.Idx → BitVec 32) (ix2 p (0 : Fin 1)) = (V m c main_v5 : S4096x1.Idx → BitVec 32) (ix2 (rowOf t p) (0 : Fin 1)) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_4.index t (0 : Fin 2) * 512 + 1 * p.val = 512 * (t.val / 4) + p.val; rw [e0]; omega
  | ⟨1, _⟩ => show win0_4.index t (1 : Fin 2) * 1 + 1 * 0 = 0; rw [e1]

/-- Window 5's block is its whole row. -/
theorem iblk5_apply (c : Dev nD) (t : Fin cfg0.N) (j : Fin 4096) :
    (iblk m c 5 t : S1x4096.Idx → BitVec 32) (ix2 (0 : Fin 1) j) = (V m c main_v6 : S1x4096.Idx → BitVec 32) (ix2 (0 : Fin 1) j) := by
  obtain ⟨-, -, -, -, -, -, -, -, -, -, e0, e1⟩ := idx_facts t
  unfold iblk
  rw [View.read_apply]
  show V m c main_v6 _ = V m c main_v6 _
  congr 1
  funext a
  apply Fin.ext
  match a with
  | ⟨0, _⟩ => show win0_5.index t (0 : Fin 2) * 1 + 1 * 0 = 0; rw [e0]
  | ⟨1, _⟩ => show win0_5.index t (1 : Fin 2) * 4096 + 1 * j.val = j.val; rw [e1]; omega

/-! ## Each block in the terms of the points and the labels -/

theorem blk0 (c : Dev nD) (t : Fin cfg0.N) (p : Fin 512) (k : Fin 1024) :
    (iblk m c 0 t : S512x1024.Idx → EReal) (ix2 p k) = xOf m c (ix2 (rowOf t p) k) :=
  (iblk0_apply m c t p k).trans (v0_apply m c _ k)

theorem blk1 (c : Dev nD) (t : Fin cfg0.N) (j : Fin 4096) (k : Fin 1024) :
    (iblk m c 1 t : S4096x1024.Idx → EReal) (ix2 j k) = xOf m c (ix2 j k) :=
  (iblk1_apply m c t j k).trans (v0_apply m c j k)

theorem blk2 (c : Dev nD) (t : Fin cfg0.N) (p : Fin 512) :
    (iblk m c 2 t : S512x1.Idx → EReal) (ix2 p (0 : Fin 1)) = Cert.Spec.sq (xOf m c) (rowOf t p) :=
  (iblk2_apply m c t p).trans (v3_apply m c _)

theorem blk3 (c : Dev nD) (t : Fin cfg0.N) (j : Fin 4096) :
    (iblk m c 3 t : S1x4096.Idx → EReal) (ix2 (0 : Fin 1) j) = Cert.Spec.sq (xOf m c) j :=
  (iblk3_apply m c t j).trans (v4_apply m c j)

theorem blk4 (c : Dev nD) (t : Fin cfg0.N) (p : Fin 512) :
    (iblk m c 4 t : S512x1.Idx → BitVec 32) (ix2 p (0 : Fin 1)) = tlOf m c (ix1 (rowOf t p)) :=
  (iblk4_apply m c t p).trans (v5_apply m c _)

theorem blk5 (c : Dev nD) (t : Fin cfg0.N) (j : Fin 4096) :
    (iblk m c 5 t : S1x4096.Idx → BitVec 32) (ix2 (0 : Fin 1) j) = tlOf m c (ix1 j) :=
  (iblk5_apply m c t j).trans (v6_apply m c j)

end Cert.KernelIdeal.HandVal

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«119346_j15221364097742_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.TilePay.lean ====
/-
  The tile body's squared distances and label comparison, read at an entry, at the ideal values.

  A tile pairs 512 rows (the row tile) with 1024 rows (the column tile). Entry (p, q) of its distance array is
  the squared norm of row p plus the squared norm of row q, minus twice the inner product of the two rows: the
  squared norms arrive as a 512 x 1 column repeated along the lanes and a 1 x 1024 row repeated down the rows,
  the inner products as the product of the two tiles, each contracted on its last axis, into zero. Entry (p, q)
  of the label comparison is set exactly when the label of row p and the label of row q are the same word.
-/
import proofs.«119346_j15221364097742_2_alg».proof.Proof.Gen.KernelIdeal.Skeleton
import proofs.«119346_j15221364097742_2_alg».proof.Proof.LibBlockOps
import proofs.«119346_j15221364097742_2_alg».proof.Proof.LibColumn
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.TilePay

open Idealize.ShloMosaic Idealize.ShloMosaic.ValueIdx Cert.KernelIdeal Cert.KernelIdeal.Gen

/-- The squared distance of row p of the row tile and row q of the column tile. -/
def dist2 (v6 : Vec Ideal S1024x1024 .bf16) (v9 : Vec Ideal S1x1024 .f32) (v14 : Vec Ideal S512x1024 .bf16)
    (v17 : Vec Ideal S512x1 .f32) (p : Fin 512) (q : Fin 1024) : EReal :=
  ((v17 (ix2 p (0 : Fin 1)) : EReal) + (v9 (ix2 (0 : Fin 1) q) : EReal))
    - Ideal.ofBits .f32 0x40000000#32 * ∑ k : Fin 1024, (v14 (ix2 p k) : EReal) * (v6 (ix2 q k) : EReal)

/-- The product of the two tiles into zero, at (p, q): the inner product of row p and row q. -/
theorem tile_matmul_apply (v6 : Vec Ideal S1024x1024 .bf16) (v14 : Vec Ideal S512x1024 .bf16) (p : Fin 512) (q : Fin 1024) :
    (matmul (F := Ideal) (φ₁ := .bf16) (φ₂ := .bf16) dot_S512x1024_S1024x1024_S512x1024_1_1_0_0_n_n none v14 v6
        (constant S512x1024 .f32 0x00000000#32) (ix2 p q) : EReal)
      = ∑ k : Fin 1024, (v14 (ix2 p k) : EReal) * (v6 (ix2 q k) : EReal) :=
  Cert.Lib.BlockOps.matmul_rows_apply dot_S512x1024_S1024x1024_S512x1024_1_1_0_0_n_n_wf none v14 v6 p q

/-- The distance array of a tile at (p, q). -/
theorem pay9_apply (v6 : Vec Ideal S1024x1024 .bf16) (v9 : Vec Ideal S1x1024 .f32) (v14 : Vec Ideal S512x1024 .bf16)
    (v17 : Vec Ideal S512x1 .f32) (p : Fin 512) (q : Fin 1024) :
    (k0_pay9 (F := Ideal) v6 v9 v14 v17 (ix2 p q) : EReal)
      = ((v17 (ix2 p (0 : Fin 1)) : EReal) + (v9 (ix2 (0 : Fin 1) q) : EReal))
          - Ideal.ofBits .f32 0x40000000#32 * ∑ k : Fin 1024, (v14 (ix2 p k) : EReal) * (v6 (ix2 q k) : EReal) := by
  unfold k0_pay9
  simp only [shapeCast_self]
  have hcol : broadcastTo S512x1024 v17 broadcasts_S512x1_S512x1024 (ix2 p q) = v17 (ix2 p (0 : Fin 1)) :=
    Cert.Lib.Column.colBroadcast_apply v17 _ p q
  have hrow : broadcastTo S512x1024 v9 broadcasts_S1x1024_S512x1024 (ix2 p q) = v9 (ix2 (0 : Fin 1) q) :=
    broadcastTo_1b_ab_apply v9 _ p q
  exact congrArg₂ (fun a b : EReal => a - Ideal.ofBits .f32 0x40000000#32 * b) (congrArg₂ (fun a b : EReal => a + b) hcol hrow)
    (tile_matmul_apply v6 v14 p q)

/-- The same, by name. -/
theorem pay9_eq_dist2 (v6 : Vec Ideal S1024x1024 .bf16) (v9 : Vec Ideal S1x1024 .f32) (v14 : Vec Ideal S512x1024 .bf16)
    (v17 : Vec Ideal S512x1 .f32) (p : Fin 512) (q : Fin 1024) :
    k0_pay9 (F := Ideal) v6 v9 v14 v17 (ix2 p q) = dist2 v6 v9 v14 v17 p q :=
  pay9_apply v6 v9 v14 v17 p q

/-- The label comparison of a tile at (p, q): set exactly when the two rows' labels are the same word. -/
theorem pay10_iff (v12 : Vec Ideal S1x1024 .i32) (v25 : Vec Ideal S512x1 .i32) (p : Fin 512) (q : Fin 1024) :
    k0_pay10 (F := Ideal) v12 v25 (ix2 p q) = 1#1 ↔ v25 (ix2 p (0 : Fin 1)) = v12 (ix2 (0 : Fin 1) q) := by
  unfold k0_pay10
  simp only [shapeCast_self]
  have hcol : broadcastTo S512x1024 v25 broadcasts_S512x1_S512x1024 (ix2 p q) = v25 (ix2 p (0 : Fin 1)) :=
    Cert.Lib.Column.colBroadcast_apply v25 _ p q
  have hrow : broadcastTo S512x1024 v12 broadcasts_S1x1024_S512x1024 (ix2 p q) = v12 (ix2 (0 : Fin 1) q) :=
    broadcastTo_1b_ab_apply v12 _ p q
  show IntOp.cmpi .eq (broadcastTo S512x1024 v25 broadcasts_S512x1_S512x1024 (ix2 p q))
      (broadcastTo S512x1024 v12 broadcasts_S1x1024_S512x1024 (ix2 p q)) = 1#1 ↔ _
  rw [hcol, hrow]
  exact IntOp.cmpi_eq

/-- A choice by the label comparison at (p, q) is a choice by the equality of the two labels. -/
theorem pay10_select {α : Type} (v12 : Vec Ideal S1x1024 .i32) (v25 : Vec Ideal S512x1 .i32) (p : Fin 512) (q : Fin 1024)
    (a b : α) :
    Scalar.select (k0_pay10 (F := Ideal) v12 v25 (ix2 p q)) a b
      = if v25 (ix2 p (0 : Fin 1)) = v12 (ix2 (0 : Fin 1) q) then a else b :=
  if_congr (pay10_iff v12 v25 p q) rfl rfl

end Cert.TilePay

end
-- ==== Proof.TilePaySmall.lean ====
/-
  The small pieces of the tile body, read at a row, at the ideal values.

  * The running maximum and minimum of a row are updated by `max` and `min` with the tile's contribution.
  * A row that has seen no tile yet holds -inf for the maximum and +inf for the minimum: the two named
    constants of the program, which the certificate's table reads as the lattice's bottom and top.
  * At the end a row's two squared distances are clipped below and rooted, and the row's margin loss and
    precision indicator are the specification's `lossRow` and `precRow` of the two roots. The indicator is
    spelt as a comparison bit widened to a word and read as a signed integer: 1 when the bit is set, else 0.
-/
import proofs.«119346_j15221364097742_2_alg».proof.Proof.Gen.KernelIdeal.Skeleton
import proofs.«119346_j15221364097742_2_alg».proof.Proof.Spec
import Idealize.ShloMosaic.Lib.ValueIdx
import Idealize.ShloMosaic.Lib.Pipeline.Value
import Idealize.ShloMosaic.PureOps.Ideal.Laws
import Idealize.ShloMosaic.PureOps.IdealRules

noncomputable section

namespace Cert.TilePay

open Idealize.ShloMosaic Idealize.ShloMosaic.ValueIdx Cert.KernelIdeal Cert.KernelIdeal.Gen

/-- The named constant "neg_big" is -inf at the ideal values. -/
theorem neg_big_eq : Named.named (F := Ideal) κ "neg_big" (φ := .f32) 0xF149F2CA#32 = (⊥ : EReal) :=
  IdealRules.named_const.ideal_named_scalar _ _ _ _ rfl

/-- The named constant "pos_big" is +inf at the ideal values. -/
theorem pos_big_eq : Named.named (F := Ideal) κ "pos_big" (φ := .f32) 0x7149F2CA#32 = (⊤ : EReal) :=
  IdealRules.named_const.ideal_named_scalar _ _ _ _ rfl

/-- A comparison bit widened to a word and read as a signed integer is 1 when the comparison holds, else 0. -/
theorem gt_indicator (a b : EReal) :
    ((((Ideal.cmp .ogt a b).setWidth 32).toInt : ℝ) : EReal) = if b < a then 1 else 0 := by
  unfold Ideal.cmp
  by_cases h : b < a
  · simp [h]
  · simp [h]

/-- The running maximum of a row: the larger of what it held and the tile's contribution. -/
theorem pay1_apply (v33 : FVec Ideal S512x1 .f32) (v38 : Vec Ideal S512x1 .f32) (p : Fin 512) :
    k0_pay1 (F := Ideal) v33 v38 (ix2 p (0 : Fin 1)) = max (v38 (ix2 p (0 : Fin 1))) (v33 (ix2 p (0 : Fin 1))) := by
  unfold k0_pay1
  exact congrFun (shapeCast_self (maximumf v38 v33) _) (ix2 p (0 : Fin 1))

/-- The running minimum of a row: the smaller of what it held and the tile's contribution. -/
theorem pay2_apply (v37 : FVec Ideal S512x1 .f32) (v43 : Vec Ideal S512x1 .f32) (p : Fin 512) :
    k0_pay2 (F := Ideal) v37 v43 (ix2 p (0 : Fin 1)) = min (v43 (ix2 p (0 : Fin 1))) (v37 (ix2 p (0 : Fin 1))) := by
  unfold k0_pay2
  exact congrFun (shapeCast_self (minimumf v43 v37) _) (ix2 p (0 : Fin 1))

/-- Before the first tile a row's maximum is -inf. -/
theorem pay7_apply (p : Fin 512) : k0_pay7 (F := Ideal) (ix2 p (0 : Fin 1)) = (⊥ : EReal) := by
  unfold k0_pay7
  exact (congrFun (shapeCast_self _ _) (ix2 p (0 : Fin 1))).trans neg_big_eq

/-- Before the first tile a row's minimum is +inf. -/
theorem pay8_apply (p : Fin 512) : k0_pay8 (F := Ideal) (ix2 p (0 : Fin 1)) = (⊤ : EReal) := by
  unfold k0_pay8
  exact (congrFun (shapeCast_self _ _) (ix2 p (0 : Fin 1))).trans pos_big_eq

/-- The clipped root of a row's largest squared distance. -/
theorem pay3_apply (v51 : Vec Ideal S512x1 .f32) (p : Fin 512) :
    k0_pay3 (F := Ideal) v51 (ix2 p (0 : Fin 1)) = Cert.Spec.root (v51 (ix2 p (0 : Fin 1))) := rfl

/-- The clipped root of a row's smallest squared distance. -/
theorem pay4_apply (v54 : Vec Ideal S512x1 .f32) (p : Fin 512) :
    k0_pay4 (F := Ideal) v54 (ix2 p (0 : Fin 1)) = Cert.Spec.root (v54 (ix2 p (0 : Fin 1))) := rfl

/-- A row's margin loss. -/
theorem pay5_apply (v51 v54 : Vec Ideal S512x1 .f32) (p : Fin 512) :
    k0_pay5 (F := Ideal) v51 v54 (ix2 p (0 : Fin 1))
      = Cert.Spec.lossRow (Cert.Spec.root (v54 (ix2 p (0 : Fin 1)))) (Cert.Spec.root (v51 (ix2 p (0 : Fin 1)))) := rfl

/-- A row's precision indicator. -/
theorem pay6_apply (v51 v54 : Vec Ideal S512x1 .f32) (p : Fin 512) :
    k0_pay6 (F := Ideal) v51 v54 (ix2 p (0 : Fin 1))
      = Cert.Spec.precRow (Cert.Spec.root (v54 (ix2 p (0 : Fin 1)))) (Cert.Spec.root (v51 (ix2 p (0 : Fin 1)))) :=
  gt_indicator _ _

end Cert.TilePay

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.TilePayMine.lean ====
/-
  The tile body's two mined values of a row, at the ideal values.

  For row p of the row tile, the tile's contribution to the row's largest squared distance among alike rows is
  the fold of `max`, from -inf, over the 1024 rows q of the column tile, of the squared distance of p and q where
  the two labels are the same word and -inf elsewhere; its contribution to the smallest squared distance among
  the other rows is the fold of `min`, from +inf, of +inf where the labels agree and the squared distance
  elsewhere. The lane reductions start from the words of -inf and +inf, and the masked entries hold the two named
  constants that the certificate's table reads as -inf and +inf.
-/
import proofs.«119346_j15221364097742_2_alg».proof.Proof.TilePay
import proofs.«119346_j15221364097742_2_alg».proof.Proof.TilePaySmall
import proofs.«119346_j15221364097742_2_alg».proof.Proof.LibLeast

noncomputable section

open scoped BigOperators

namespace Cert.TilePay

open Idealize.ShloMosaic Idealize.ShloMosaic.ValueIdx Cert.KernelIdeal Cert.KernelIdeal.Gen

/-- The word of -inf. -/
theorem neg_inf_word : Ideal.ofBits .f32 0xFF800000#32 = (⊥ : EReal) := by simp [Ideal.ofBits, Ideal.ieee]

/-- The word of +inf. -/
theorem pos_inf_word : Ideal.ofBits .f32 0x7F800000#32 = (⊤ : EReal) := by simp [Ideal.ofBits, Ideal.ieee]

/-- A tile's contribution to row p's largest squared distance among the rows with its label. -/
theorem pay11_apply (v6 : Vec Ideal S1024x1024 .bf16) (v9 : Vec Ideal S1x1024 .f32) (v12 : Vec Ideal S1x1024 .i32)
    (v14 : Vec Ideal S512x1024 .bf16) (v17 : Vec Ideal S512x1 .f32) (v25 : Vec Ideal S512x1 .i32) (p : Fin 512) :
    (k0_pay11 (F := Ideal) v6 v9 v12 v14 v17 v25 (ix2 p (0 : Fin 1)) : EReal)
      = (Finset.univ : Finset (Fin 1024)).fold max (⊥ : EReal) (fun q =>
          if v25 (ix2 p (0 : Fin 1)) = v12 (ix2 (0 : Fin 1) q) then
            ((v17 (ix2 p (0 : Fin 1)) : EReal) + (v9 (ix2 (0 : Fin 1) q) : EReal))
              - Ideal.ofBits .f32 0x40000000#32 * ∑ k : Fin 1024, (v14 (ix2 p k) : EReal) * (v6 (ix2 q k) : EReal)
          else ⊥) := by
  unfold k0_pay11
  refine (Cert.Lib.Column.col_apply _ shapeCasts_S512_S512x1 p).trans ?_
  refine (Cert.Lib.BlockOps.rowMax_apply _ _ reduces_S512x1024_S512 (.inl rfl) rfl p).trans ?_
  show Finset.fold max (Ideal.ofBits .f32 0xFF800000#32) _ _ = _
  rw [neg_inf_word]
  refine Finset.fold_congr (fun q _ => ?_)
  show Scalar.select (k0_pay10 (F := Ideal) v12 v25 (ix2 p q)) (k0_pay9 (F := Ideal) v6 v9 v14 v17 (ix2 p q))
      (Named.named (F := Ideal) κ "neg_big" (φ := .f32) 0xF149F2CA#32) = _
  rw [pay10_select, pay9_apply, neg_big_eq]

/-- A tile's contribution to row p's smallest squared distance among the rows with another label. -/
theorem pay12_apply (v6 : Vec Ideal S1024x1024 .bf16) (v9 : Vec Ideal S1x1024 .f32) (v12 : Vec Ideal S1x1024 .i32)
    (v14 : Vec Ideal S512x1024 .bf16) (v17 : Vec Ideal S512x1 .f32) (v25 : Vec Ideal S512x1 .i32) (p : Fin 512) :
    (k0_pay12 (F := Ideal) v6 v9 v12 v14 v17 v25 (ix2 p (0 : Fin 1)) : EReal)
      = (Finset.univ : Finset (Fin 1024)).fold min (⊤ : EReal) (fun q =>
          if v25 (ix2 p (0 : Fin 1)) = v12 (ix2 (0 : Fin 1) q) then ⊤
          else
            ((v17 (ix2 p (0 : Fin 1)) : EReal) + (v9 (ix2 (0 : Fin 1) q) : EReal))
              - Ideal.ofBits .f32 0x40000000#32 * ∑ k : Fin 1024, (v14 (ix2 p k) : EReal) * (v6 (ix2 q k) : EReal)) := by
  unfold k0_pay12
  refine (Cert.Lib.Column.col_apply _ shapeCasts_S512_S512x1 p).trans ?_
  refine (Cert.Lib.Least.rowMin_f32 _ reduces_S512x1024_S512 (.inl rfl) rfl p).trans ?_
  rw [pos_inf_word]
  refine Finset.fold_congr (fun q _ => ?_)
  show Scalar.select (k0_pay10 (F := Ideal) v12 v25 (ix2 p q)) (Named.named (F := Ideal) κ "pos_big" (φ := .f32) 0x7149F2CA#32)
      (k0_pay9 (F := Ideal) v6 v9 v14 v17 (ix2 p q)) = _
  rw [pay10_select, pay9_apply, pos_big_eq]

/-- The same two values over the named squared distance. -/
theorem pay11_eq_dist2 (v6 : Vec Ideal S1024x1024 .bf16) (v9 : Vec Ideal S1x1024 .f32) (v12 : Vec Ideal S1x1024 .i32)
    (v14 : Vec Ideal S512x1024 .bf16) (v17 : Vec Ideal S512x1 .f32) (v25 : Vec Ideal S512x1 .i32) (p : Fin 512) :
    (k0_pay11 (F := Ideal) v6 v9 v12 v14 v17 v25 (ix2 p (0 : Fin 1)) : EReal)
      = (Finset.univ : Finset (Fin 1024)).fold max (⊥ : EReal) (fun q =>
          if v25 (ix2 p (0 : Fin 1)) = v12 (ix2 (0 : Fin 1) q) then dist2 v6 v9 v14 v17 p q else ⊥) :=
  pay11_apply v6 v9 v12 v14 v17 v25 p

theorem pay12_eq_dist2 (v6 : Vec Ideal S1024x1024 .bf16) (v9 : Vec Ideal S1x1024 .f32) (v12 : Vec Ideal S1x1024 .i32)
    (v14 : Vec Ideal S512x1024 .bf16) (v17 : Vec Ideal S512x1 .f32) (v25 : Vec Ideal S512x1 .i32) (p : Fin 512) :
    (k0_pay12 (F := Ideal) v6 v9 v12 v14 v17 v25 (ix2 p (0 : Fin 1)) : EReal)
      = (Finset.univ : Finset (Fin 1024)).fold min (⊤ : EReal) (fun q =>
          if v25 (ix2 p (0 : Fin 1)) = v12 (ix2 (0 : Fin 1) q) then ⊤ else dist2 v6 v9 v14 v17 p q) :=
  pay12_apply v6 v9 v12 v14 v17 v25 p

end Cert.TilePay

end
-- ==== Proof.KI.MineVals.lean ====
/-
  A tile's two mined values of a row, in the terms of the points and the labels.

  At grid point t the row tile holds rows 512 * (t / 4) ... of the points and the column tile rows
  1024 * (t % 4) ... . Entry (p, q) of the tile's distance array is the specification's squared distance of those two
  rows of the whole array, and the label comparison there is the specification's "alike" of the two rows; so the
  point's contribution to row p's running maximum is the fold of max, from -inf, over the column tile's rows of the
  squared distance to the alike rows, and its contribution to the running minimum the fold of min, from +inf, of the
  squared distance to the other rows.
-/
import proofs.«119346_j15221364097742_2_alg».proof.Proof.KI.Pieces
import proofs.«119346_j15221364097742_2_alg».proof.Proof.KI.BlkVals
import proofs.«119346_j15221364097742_2_alg».proof.Proof.TilePayMine
import proofs.«119346_j15221364097742_2_alg».proof.Proof.Spec

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- Row q of column tile t % 4, as a row of the whole array. -/
abbrev colOf (t : Fin cfg0.N) (q : Fin 1024) : Fin 4096 :=
  ⟨1024 * (t.val % 4) + q.val, by have := q.isLt; omega⟩

/-- The column tile's rows, squared norms and labels, in the terms of the points and the labels. -/
theorem tile6_val (c : Dev nD) (t : Fin cfg0.N) (q k : Fin 1024) :
    (tile6 m c t (ix2 q k) : EReal) = xOf m c (ix2 (colOf t q) k) :=
  (tile6_apply m c t q k).trans (blk1 m c t (colOf t q) k)

theorem tile9_val (c : Dev nD) (t : Fin cfg0.N) (q : Fin 1024) :
    (tile9 m c t (ix2 (0 : Fin 1) q) : EReal) = Cert.Spec.sq (xOf m c) (colOf t q) :=
  (tile9_apply m c t q).trans (blk3 m c t (colOf t q))

theorem tile12_val (c : Dev nD) (t : Fin cfg0.N) (q : Fin 1024) :
    (tile12 m c t (ix2 (0 : Fin 1) q) : BitVec 32) = tlOf m c (ix1 (colOf t q)) :=
  (tile12_apply m c t q).trans (blk5 m c t (colOf t q))

/-- Entry (p, q) of the tile's distance array is the squared distance of the two rows of the whole array. -/
theorem tile_d2 (c : Dev nD) (t : Fin cfg0.N) (p : Fin 512) (q : Fin 1024) :
    Cert.TilePay.dist2 (tile6 m c t) (tile9 m c t) (iblk m c 0 t) (iblk m c 2 t) p q
      = Cert.Spec.d2 (xOf m c) (rowOf t p) (colOf t q) := by
  unfold Cert.TilePay.dist2 Cert.Spec.d2 Cert.Spec.inner Cert.Spec.two
  exact congrArg₂ (fun a b : EReal => a - Ideal.ofBits .f32 0x40000000#32 * b)
    (congrArg₂ (fun a b : EReal => a + b) (blk2 m c t p) (tile9_val m c t q))
    (Finset.sum_congr rfl fun k _ => congrArg₂ (fun a b : EReal => a * b) (blk0 m c t p k) (tile6_val m c t q k))

/-- The tile's label comparison at (p, q) is the specification's comparison of the two rows' labels. -/
theorem tile_alike (c : Dev nD) (t : Fin cfg0.N) (p : Fin 512) (q : Fin 1024) :
    ((iblk m c 4 t : S512x1.Idx → BitVec 32) (ix2 p (0 : Fin 1)) = tile12 m c t (ix2 (0 : Fin 1) q))
      ↔ Cert.Spec.alike (tlOf m c) (rowOf t p) (colOf t q) := by
  rw [blk4 m c t p, tile12_val m c t q]
  exact Iff.rfl

/-- The point's contribution to row p's running maximum. -/
theorem mx_apply (c : Dev nD) (t : Fin cfg0.N) (p : Fin 512) :
    (mx m c t (ix2 p (0 : Fin 1)) : EReal)
      = (Finset.univ : Finset (Fin 1024)).fold max (⊥ : EReal) (fun q =>
          if Cert.Spec.alike (tlOf m c) (rowOf t p) (colOf t q) then Cert.Spec.d2 (xOf m c) (rowOf t p) (colOf t q) else ⊥) := by
  unfold mx
  refine (Cert.TilePay.pay11_eq_dist2 (tile6 m c t) (tile9 m c t) (tile12 m c t) (iblk m c 0 t) (iblk m c 2 t) (iblk m c 4 t) p).trans ?_
  refine Finset.fold_congr (fun q _ => ?_)
  exact if_congr (tile_alike m c t p q) (tile_d2 m c t p q) rfl

/-- The point's contribution to row p's running minimum. -/
theorem mn_apply (c : Dev nD) (t : Fin cfg0.N) (p : Fin 512) :
    (mn m c t (ix2 p (0 : Fin 1)) : EReal)
      = (Finset.univ : Finset (Fin 1024)).fold min (⊤ : EReal) (fun q =>
          if Cert.Spec.alike (tlOf m c) (rowOf t p) (colOf t q) then ⊤ else Cert.Spec.d2 (xOf m c) (rowOf t p) (colOf t q)) := by
  unfold mn
  refine (Cert.TilePay.pay12_eq_dist2 (tile6 m c t) (tile9 m c t) (tile12 m c t) (iblk m c 0 t) (iblk m c 2 t) (iblk m c 4 t) p).trans ?_
  refine Finset.fold_congr (fun q _ => ?_)
  exact if_congr (tile_alike m c t p q) rfl (tile_d2 m c t p q)

end Cert.KernelIdeal.HandVal

end
-- ==== Proof.KI.ArrFinal.lean ====
/-
  The two result arrays after the region, from their blocks.

  Each result window holds a block of 512 rows of a 4096 x 1 column and is written back at the last column tile of
  each row sweep (the points t with t % 4 = 3), to rows 512 * (t / 4) ... 512 * (t / 4) + 511. If what each of those
  write-backs leaves is the matching rows of one column G, the array ends holding G: row i is written by the point
  4 * (i / 512) + 3, and the eight blocks tile the column.
-/
import proofs.«119346_j15221364097742_2_alg».proof.Proof.KI.BlkVals
import proofs.«119346_j15221364097742_2_alg».proof.Proof.Gen.KernelIdeal.Points
import Idealize.ShloMosaic.Lib.Pipeline.Value

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result windows' printed index maps, decided once over the grid: row block t / 4, column block 0. -/
theorem idx_facts_out : ∀ t : Fin cfg0.N,
    win0_6.index t (0 : Fin 2) = t.val / 4 ∧ win0_6.index t (1 : Fin 2) = 0
    ∧ win0_7.index t (0 : Fin 2) = t.val / 4 ∧ win0_7.index t (1 : Fin 2) = 0 :=
  (by decide +kernel : ∀ t : Fin grid0.N, _)

/-- Result window 6's array after the region: when every write-back (the last column tile of each row sweep) leaves rows
    512 * (t / 4) ... of G in the staging buffer, the array ends holding G: the eight write-backs' blocks tile the column. -/
theorem arr6_final (c : Dev nD) (G : FVec Ideal S4096x1 .f32)
    (hG : ∀ (t : Fin cfg0.N), t.val % 4 = 3 → ∀ p : Fin 512,
      ((dats m 0 c).after 6 t : S512x1.Idx → EReal) (ix2 p (0 : Fin 1)) = G (ix2 (rowOf t p) (0 : Fin 1))) :
    (dats m 0 c).arrAt 6 cfg0.N = G := by
  refine (dats m 0 c).arrAt_eq_of_cover 6 G (fun t hf => ?_) (fun (i : S4096x1.Idx) => ?_)
  · have h3 : t.val % 4 = 3 := (flush0_6 t).mp hf
    have e0 : win0_6.index t (0 : Fin 2) = t.val / 4 := (idx_facts_out t).1
    have e1 : win0_6.index t (1 : Fin 2) = 0 := (idx_facts_out t).2.1
    show (cfg0.win 6).cut (grid0.coords t) ((dats m 0 c).after 6 t) = _
    refine funext fun (y : S512x1.Idx) => ?_
    obtain ⟨p, z, rfl⟩ : ∃ (p : Fin 512) (z : Fin 1), y = ix2 p z := ⟨y 0, y 1, eq_ix2 y⟩
    obtain rfl : z = 0 := Subsingleton.elim _ _
    rw [View.read_apply]
    show ((dats m 0 c).after 6 t : S512x1.Idx → EReal) (ix2 p (0 : Fin 1)) = G (((cfg0.win 6).blk t).view.emb (ix2 p (0 : Fin 1)))
    rw [hG t h3 p]
    congr 1
    funext a
    apply Fin.ext
    match a with
    | ⟨0, _⟩ => show 512 * (t.val / 4) + p.val = win0_6.index t (0 : Fin 2) * 512 + 1 * p.val; rw [e0]; omega
    | ⟨1, _⟩ => show 0 = win0_6.index t (1 : Fin 2) * 1 + 1 * 0; rw [e1]
  · have hi0 : (i 0).val < 4096 := idx2_lt0 i
    have hi1 : (i 1).val < 1 := idx2_lt1 i
    have ht : 4 * ((i 0).val / 512) + 3 < cfg0.N := by rw [show cfg0.N = 32 from N_0]; omega
    refine ⟨⟨4 * ((i 0).val / 512) + 3, ht⟩, (flush0_6 _).mpr (by show (4 * ((i 0).val / 512) + 3) % 4 = 3; omega), ?_⟩
    have e0 : win0_6.index ⟨4 * ((i 0).val / 512) + 3, ht⟩ (0 : Fin 2) = (4 * ((i 0).val / 512) + 3) / 4 := (idx_facts_out _).1
    have e1 : win0_6.index ⟨4 * ((i 0).val / 512) + 3, ht⟩ (1 : Fin 2) = 0 := (idx_facts_out _).2.1
    show i ∈ ((View.whole main_v7_0).slice (win0_6.rect ⟨4 * ((i 0).val / 512) + 3, ht⟩)).set
    rw [View.set_slice_whole, Rect.mem_set_unit]
    intro a
    match a with
    | ⟨0, _⟩ =>
      show win0_6.index ⟨4 * ((i 0).val / 512) + 3, ht⟩ (0 : Fin 2) * 512 ≤ (i 0).val
        ∧ (i 0).val < win0_6.index ⟨4 * ((i 0).val / 512) + 3, ht⟩ (0 : Fin 2) * 512 + 512
      rw [e0]; omega
    | ⟨1, _⟩ =>
      show win0_6.index ⟨4 * ((i 0).val / 512) + 3, ht⟩ (1 : Fin 2) * 1 ≤ (i 1).val
        ∧ (i 1).val < win0_6.index ⟨4 * ((i 0).val / 512) + 3, ht⟩ (1 : Fin 2) * 1 + 1
      rw [e1]; omega

/-- Result window 7's array after the region: when every write-back (the last column tile of each row sweep) leaves rows
    512 * (t / 4) ... of G in the staging buffer, the array ends holding G: the eight write-backs' blocks tile the column. -/
theorem arr7_final (c : Dev nD) (G : FVec Ideal S4096x1 .f32)
    (hG : ∀ (t : Fin cfg0.N), t.val % 4 = 3 → ∀ p : Fin 512,
      ((dats m 0 c).after 7 t : S512x1.Idx → EReal) (ix2 p (0 : Fin 1)) = G (ix2 (rowOf t p) (0 : Fin 1))) :
    (dats m 0 c).arrAt 7 cfg0.N = G := by
  refine (dats m 0 c).arrAt_eq_of_cover 7 G (fun t hf => ?_) (fun (i : S4096x1.Idx) => ?_)
  · have h3 : t.val % 4 = 3 := (flush0_7 t).mp hf
    have e0 : win0_7.index t (0 : Fin 2) = t.val / 4 := (idx_facts_out t).2.2.1
    have e1 : win0_7.index t (1 : Fin 2) = 0 := (idx_facts_out t).2.2.2
    show (cfg0.win 7).cut (grid0.coords t) ((dats m 0 c).after 7 t) = _
    refine funext fun (y : S512x1.Idx) => ?_
    obtain ⟨p, z, rfl⟩ : ∃ (p : Fin 512) (z : Fin 1), y = ix2 p z := ⟨y 0, y 1, eq_ix2 y⟩
    obtain rfl : z = 0 := Subsingleton.elim _ _
    rw [View.read_apply]
    show ((dats m 0 c).after 7 t : S512x1.Idx → EReal) (ix2 p (0 : Fin 1)) = G (((cfg0.win 7).blk t).view.emb (ix2 p (0 : Fin 1)))
    rw [hG t h3 p]
    congr 1
    funext a
    apply Fin.ext
    match a with
    | ⟨0, _⟩ => show 512 * (t.val / 4) + p.val = win0_7.index t (0 : Fin 2) * 512 + 1 * p.val; rw [e0]; omega
    | ⟨1, _⟩ => show 0 = win0_7.index t (1 : Fin 2) * 1 + 1 * 0; rw [e1]
  · have hi0 : (i 0).val < 4096 := idx2_lt0 i
    have hi1 : (i 1).val < 1 := idx2_lt1 i
    have ht : 4 * ((i 0).val / 512) + 3 < cfg0.N := by rw [show cfg0.N = 32 from N_0]; omega
    refine ⟨⟨4 * ((i 0).val / 512) + 3, ht⟩, (flush0_7 _).mpr (by show (4 * ((i 0).val / 512) + 3) % 4 = 3; omega), ?_⟩
    have e0 : win0_7.index ⟨4 * ((i 0).val / 512) + 3, ht⟩ (0 : Fin 2) = (4 * ((i 0).val / 512) + 3) / 4 := (idx_facts_out _).2.2.1
    have e1 : win0_7.index ⟨4 * ((i 0).val / 512) + 3, ht⟩ (1 : Fin 2) = 0 := (idx_facts_out _).2.2.2
    show i ∈ ((View.whole main_v7_1).slice (win0_7.rect ⟨4 * ((i 0).val / 512) + 3, ht⟩)).set
    rw [View.set_slice_whole, Rect.mem_set_unit]
    intro a
    match a with
    | ⟨0, _⟩ =>
      show win0_7.index ⟨4 * ((i 0).val / 512) + 3, ht⟩ (0 : Fin 2) * 512 ≤ (i 0).val
        ∧ (i 0).val < win0_7.index ⟨4 * ((i 0).val / 512) + 3, ht⟩ (0 : Fin 2) * 512 + 512
      rw [e0]; omega
    | ⟨1, _⟩ =>
      show win0_7.index ⟨4 * ((i 0).val / 512) + 3, ht⟩ (1 : Fin 2) * 1 ≤ (i 1).val
        ∧ (i 1).val < win0_7.index ⟨4 * ((i 0).val / 512) + 3, ht⟩ (1 : Fin 2) * 1 + 1
      rw [e1]; omega

end Cert.KernelIdeal.HandVal

end
-- ==== Proof.KI.Oblig.lean ====
/-
  The body obligation: at every grid point, from the invariant and the windows' staging buffers at what they then
  hold, the kernel body runs to the invariant at the next point and the buffers at what the proof data say.
-/
import proofs.«119346_j15221364097742_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point: the closed forms of the two conditions say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t (fun h => h1 ((hcond1 t).mp h))) (noFlush6 t (fun h => h1 ((hcond1 t).mp h)))]
      rw [Dat.leavesExact_idle (dats m 0 c) 7 t (idle7 t (fun h => h1 ((hcond1 t).mp h))) (noFlush7 t (fun h => h1 ((hcond1 t).mp h)))]
      rw [outsAt_A m c t h0 h1]
      unfold stepA; (try dsimp only)
      by_cases hz : t.val = 0
      · -- the very first point: the scratch buffers hold anything
        rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverA_0 m c t h0 h1)
            · unfold owns; iexists _; isplitr
              swap; · iexact HS1
              ipureintro; exact View.read_writes_of_cover _ _ _ _ _ (scoverA_1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · -- a later row sweep's first tile: what the scratch buffers hold is forgotten
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) ((hcond0 t).mpr h0) (fun h => h1 ((hcond1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverA_0 m c t h0 h1)
            · unfold owns; iexists _; isplitr
              swap; · iexact HS1
              ipureintro; exact View.read_writes_of_cover _ _ _ _ _ (scoverA_1 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 4 = 3
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t ((hcond1 t).mpr h1)], after6]
      rw [show (dats m 0 c).leavesExact 7 t = owns (c : Thread nD τ) (ms7 t) fullShare ((dats m 0 c).after 7 t) from by
        unfold Dat.leavesExact; rw [live7 t ((hcond1 t).mpr h1)], after7]
      rw [outsAt_C m c t h0 h1]
      unfold stepC; (try dsimp only)
      have hz : t.val ≠ 0 := fun e => h0 (by rw [e])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) ((hcond1 t).mpr h1) (iblk m c 0 t) (iblk m c 1 t) (iblk m c 2 t) (iblk m c 3 t) (iblk m c 4 t) (iblk m c 5 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverC_0 m c t h0 h1 _ _)
            · unfold owns; iexists _; isplitr
              swap; · iexact HS1
              ipureintro; exact View.read_writes_of_cover _ _ _ _ _ (scoverC_1 m c t h0 h1 _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 m c t h0 h1 _ _)
        unfold owns; iexists _; isplitr
        swap; · iexact H7
        ipureintro; exact View.read_writes_of_cover _ _ _ _ _ (coverC_7 m c t h0 h1 _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [Dat.leavesExact_idle (dats m 0 c) 6 t (idle6 t (fun h => h1 ((hcond1 t).mp h))) (noFlush6 t (fun h => h1 ((hcond1 t).mp h)))]
      rw [Dat.leavesExact_idle (dats m 0 c) 7 t (idle7 t (fun h => h1 ((hcond1 t).mp h))) (noFlush7 t (fun h => h1 ((hcond1 t).mp h)))]
      rw [outsAt_B m c t h0 h1]
      unfold stepB; (try dsimp only)
      have hz : t.val ≠ 0 := fun e => h0 (by rw [e])
      ·
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scoverB_0 m c t h0 h1 _ _)
            · unfold owns; iexists _; isplitr
              swap; · iexact HS1
              ipureintro; exact View.read_writes_of_cover _ _ _ _ _ (scoverB_1 m c t h0 h1 _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at something. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KI.Launch.lean ====
/-
  The launch: @main's host operations before the region, the region over the proof data, the host operations after
  it. The array the first two windows share enters the region split into two half shares, one per window; the two
  result arrays leave it at what the write-backs made of them, and the host operations after the region run on
  them. The run ends with every array of the pipeline at its final contents, both argument arrays as launched, and the
  two results at the host operations' values.
-/
import proofs.«119346_j15221364097742_2_alg».proof.Proof.KI.Oblig

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays of the region, window by window -/

/-- The buffers behind the windows' arrays: seven, the first two windows being on one. -/
theorem arrImage : (Finset.univ.image (Pipeline.arrRef spec0) : Finset (Ref sig .tc))
    = [main_v0, main_v3, main_v4, main_v5, main_v6, main_v7_0, main_v7_1].toFinset := by decide

/-- The pipeline's arrays at contents Fw, each a whole buffer at its window's share. -/
theorem arrays_eq' (c : Dev nD) (Fw : (w : Fin cfg0.W) → Buf (Elt F) ((cfg0.win w).arr.view.loc (c.tc : Thread nD τ))) :
    (dats m 0 c).arrays Fw = bigSep Finset.univ fun w : Fin cfg0.W =>
      (((c.tc : Thread nD τ).loc (Pipeline.arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The seven buffers behind the arrays, one by one. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_v0) ↦{fullShare} Vv main_v0) ∗ (((c.tc : Thread nD τ).loc main_v3) ↦{fullShare} Vv main_v3)
          ∗ (((c.tc : Thread nD τ).loc main_v4) ↦{fullShare} Vv main_v4) ∗ (((c.tc : Thread nD τ).loc main_v5) ↦{fullShare} Vv main_v5)
          ∗ (((c.tc : Thread nD τ).loc main_v6) ↦{fullShare} Vv main_v6) ∗ (((c.tc : Thread nD τ).loc main_v7_0) ↦{fullShare} Vv main_v7_0)
          ∗ (((c.tc : Thread nD τ).loc main_v7_1) ↦{fullShare} Vv main_v7_1)) :=
  bigSep_eq_bigSepL_of_eq [main_v0, main_v3, main_v4, main_v5, main_v6, main_v7_0, main_v7_1] arrImage (by decide) _

/-- ENTRY: the seven buffers whole at the full share make the eight windows' arrays, the shared one split in two. -/
theorem hsplit (c : Dev nD) : (Pipeline.arrBufs spec0 c (V m c) : sProp 𝕄) ⊢ (dats m 0 c).arrays ((dats m 0 c).arrAt · 0) := by
  rw [arrays_eq', bigSep_W0, share0, share1, share2, share3, share4, share5, share6, share7]
  rw [arrBufs_eq]
  iintro ⟨H0, H3, H4, H5, H6, H70, H71⟩
  ihave H0' := (pointsTo_share (PosShare.mem_left_op_right fullShare)).1 $$ H0
  icases H0' with ⟨H0a, H0b⟩
  isplitl [H0a]; · iexact H0a
  isplitl [H0b]; · iexact H0b
  isplitl [H3]; · iexact H3
  isplitl [H4]; · iexact H4
  isplitl [H5]; · iexact H5
  isplitl [H6]; · iexact H6
  isplitl [H70]; · iexact H70
  iexact H71

/-! ## The host operations after the region -/

/-- A core's buffer contents when the region is left: the pipeline's arrays at their final contents, every other
    buffer as the region found it. -/
abbrev Wend (c : Dev nD) : Valuation τ sig (Elt F) :=
  Pipeline.withArrays spec0 c (V0 m c) fun w => (dats m 0 c).arrAt w cfg0.N
/-- And after the host operations that follow. -/
abbrev Wfin (c : Dev nD) (b : Ref sig .tc) : Buf (Elt F) ((c : Thread nD τ).loc b) :=
  StableHlo.after (List.flatten [hostOps1]) (Wend m c) (Proc.devRef .tc b)

/-- At a window whose array no other window is on, the exit contents are the array's final contents. -/
theorem Wend_arr (c : Dev nD) (w : Fin cfg0.W) (huniq : ∀ w', Pipeline.arrRef spec0 w' = Pipeline.arrRef spec0 w → w' = w) :
    Wend m c (Proc.devRef .tc (Pipeline.arrRef spec0 w)) = (dats m 0 c).arrAt w cfg0.N := by
  unfold Wend Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := huniq w' (Proc.devRef_injective _ e)
  rfl

/-- The buffers the later host operations touch. -/
def tailSet : Finset (DevRef τ sig) :=
  ([main_v7_0, main_v7_1, main_cst_0, main_v8, main_cst_1, main_v9, main_cst_2, main_v10, main_cst_3, main_v11] : List (Ref sig .tc)).toFinset.map ⟨Proc.devRef (sig := sig) .tc, Proc.devRef_injective _⟩

theorem mem_tailSet (r : Ref sig .tc) (h : r ∈ ([main_v7_0, main_v7_1, main_cst_0, main_v8, main_cst_1, main_v9, main_cst_2, main_v10, main_cst_3, main_v11] : List (Ref sig .tc)).toFinset) :
    Proc.devRef (τ := τ) .tc r ∈ tailSet := Finset.mem_map.mpr ⟨r, h, rfl⟩

theorem hostOps1_tail : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl
  all_goals
    intro b hb
    simp only [StableHlo.nullary_bufs, StableHlo.binary_bufs, Finset.mem_insert, Finset.mem_singleton] at hb
    first
      | (rcases hb with rfl | rfl | rfl <;> exact mem_tailSet _ (by decide))
      | (subst hb; exact mem_tailSet _ (by decide))

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The buffers the later host operations touch, held at a valuation, one by one. -/
theorem held_tail (c : Dev nD) (W : Valuation τ sig (Elt F)) :
    (StableHlo.held (c.tc : Thread nD τ) tailSet W : sProp 𝕄)
      = iprop((((c.tc : Thread nD τ).loc main_v7_0) ↦{fullShare} W (Proc.devRef .tc main_v7_0))
          ∗ (((c.tc : Thread nD τ).loc main_v7_1) ↦{fullShare} W (Proc.devRef .tc main_v7_1))
          ∗ (((c.tc : Thread nD τ).loc main_cst_0) ↦{fullShare} W (Proc.devRef .tc main_cst_0))
          ∗ (((c.tc : Thread nD τ).loc main_v8) ↦{fullShare} W (Proc.devRef .tc main_v8))
          ∗ (((c.tc : Thread nD τ).loc main_cst_1) ↦{fullShare} W (Proc.devRef .tc main_cst_1))
          ∗ (((c.tc : Thread nD τ).loc main_v9) ↦{fullShare} W (Proc.devRef .tc main_v9))
          ∗ (((c.tc : Thread nD τ).loc main_cst_2) ↦{fullShare} W (Proc.devRef .tc main_cst_2))
          ∗ (((c.tc : Thread nD τ).loc main_v10) ↦{fullShare} W (Proc.devRef .tc main_v10))
          ∗ (((c.tc : Thread nD τ).loc main_cst_3) ↦{fullShare} W (Proc.devRef .tc main_cst_3))
          ∗ (((c.tc : Thread nD τ).loc main_v11) ↦{fullShare} W (Proc.devRef .tc main_v11))) := by
  unfold StableHlo.held tailSet
  rw [bigSep_map, bigSep_eq_bigSepL_of_eq _ rfl (by decide)]
  rfl

theorem Wend6 (c : Dev nD) : Wend m c (Proc.devRef .tc main_v7_0) = (dats m 0 c).arrAt 6 cfg0.N := Wend_arr m c 6 (by decide)
theorem Wend7 (c : Dev nD) : Wend m c (Proc.devRef .tc main_v7_1) = (dats m 0 c).arrAt 7 cfg0.N := Wend_arr m c 7 (by decide)
theorem Wend_rest (c : Dev nD) (b : Ref sig .tc) (hb : ∀ w, Pipeline.arrRef spec0 w ≠ b) : Wend m c (Proc.devRef .tc b) = V m c b :=
  Pipeline.withArrays_of_ne spec0 c (V0 m c) _ b hb

/-- No later host operation writes a result array of the region. -/
theorem Wfin6 (c : Dev nD) : Wfin m c main_v7_0 = (dats m 0 c).arrAt 6 cfg0.N := by
  unfold Wfin
  rw [StableHlo.after_of_forall_not_mem (b := Proc.devRef .tc main_v7_0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))]
  exact Wend6 m c
theorem Wfin7 (c : Dev nD) : Wfin m c main_v7_1 = (dats m 0 c).arrAt 7 cfg0.N := by
  unfold Wfin
  rw [StableHlo.after_of_forall_not_mem (b := Proc.devRef .tc main_v7_1) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))]
  exact Wend7 m c

/-- What the run keeps to read at the end: the two argument arrays and the two results. -/
def Zend (c : Dev nD) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_v9) ↦{fullShare} Wfin m c main_v9) ∗ (((c.tc : Thread nD τ).loc main_v11) ↦{fullShare} Wfin m c main_v11))

theorem back6 (c : Dev nD) : (((c.tc : Thread nD τ).loc main_v7_0) ↦{fullShare} StableHlo.after (List.flatten [hostOps1]) (Wend m c) (Proc.devRef .tc main_v7_0)) ⊢ ((((c.tc : Thread nD τ).loc main_v7_0) ↦{fullShare} (dats m 0 c).arrAt 6 cfg0.N) : sProp 𝕄) := by
  rw [show StableHlo.after (List.flatten [hostOps1]) (Wend m c) (Proc.devRef .tc main_v7_0) = (dats m 0 c).arrAt 6 cfg0.N from Wfin6 m c]; try exact .rfl
theorem back7 (c : Dev nD) : (((c.tc : Thread nD τ).loc main_v7_1) ↦{fullShare} StableHlo.after (List.flatten [hostOps1]) (Wend m c) (Proc.devRef .tc main_v7_1)) ⊢ ((((c.tc : Thread nD τ).loc main_v7_1) ↦{fullShare} (dats m 0 c).arrAt 7 cfg0.N) : sProp 𝕄) := by
  rw [show StableHlo.after (List.flatten [hostOps1]) (Wend m c) (Proc.devRef .tc main_v7_1) = (dats m 0 c).arrAt 7 cfg0.N from Wfin7 m c]; try exact .rfl

/-- The buffers the later host operations touch, as the region leaves them, are held at the exit contents. -/
theorem mk_pre (c : Dev nD) : iprop(boundary (c.tc : Thread nD τ) ∗ (((c.tc : Thread nD τ).loc main_v7_0) ↦{fullShare} (dats m 0 c).arrAt 6 cfg0.N) ∗ (((c.tc : Thread nD τ).loc main_v7_1) ↦{fullShare} (dats m 0 c).arrAt 7 cfg0.N) ∗ (((c.tc : Thread nD τ).loc main_cst_0) ↦{fullShare} V m c main_cst_0) ∗ (((c.tc : Thread nD τ).loc main_v8) ↦{fullShare} V m c main_v8) ∗ (((c.tc : Thread nD τ).loc main_cst_1) ↦{fullShare} V m c main_cst_1) ∗ (((c.tc : Thread nD τ).loc main_v9) ↦{fullShare} V m c main_v9) ∗ (((c.tc : Thread nD τ).loc main_cst_2) ↦{fullShare} V m c main_cst_2) ∗ (((c.tc : Thread nD τ).loc main_v10) ↦{fullShare} V m c main_v10) ∗ (((c.tc : Thread nD τ).loc main_cst_3) ↦{fullShare} V m c main_cst_3) ∗ (((c.tc : Thread nD τ).loc main_v11) ↦{fullShare} V m c main_v11))
      ⊢ (iprop(boundary (c.tc : Thread nD τ) ∗ StableHlo.held (c.tc : Thread nD τ) tailSet (Wend m c)) : sProp 𝕄) := by
    rw [held_tail, Wend6, Wend7, Wend_rest m c main_cst_0 (by decide), Wend_rest m c main_v8 (by decide), Wend_rest m c main_cst_1 (by decide), Wend_rest m c main_v9 (by decide), Wend_rest m c main_cst_2 (by decide), Wend_rest m c main_v10 (by decide), Wend_rest m c main_cst_3 (by decide), Wend_rest m c main_v11 (by decide)]
    try exact .rfl

set_option backward.isDefEq.respectTransparency.types false in
/-- EXIT and the host operations after the region: they run on the two result arrays and their own buffers. -/
theorem htail (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c.tc : Thread nD τ) none) Set.univ
          (Pipeline.chain [StableHlo.seq hostOps1]) Q' := by
  rw [Pipeline.unscopedRestP_none, unscopedRest0_eq, arrays_eq', bigSep_W0, share0, share1, share2, share3, share4, share5, share6, share7]
  iintro ⟨Hk, Hb, ⟨A0, A1, A2, A3, A4, A5, A6, A7⟩, ⟨Harg0, Harg1, Hv1, Hcst, Hv2, Hcst0, Hv8, Hcst1, Hv9, Hcst2, Hv10, Hcst3, Hv11⟩⟩
  ihave Hpre := (mk_pre m c) $$ [Hb A6 A7 Hcst0 Hv8 Hcst1 Hv9 Hcst2 Hv10 Hcst3 Hv11]
  · isplitl [Hb]; · iexact Hb
    isplitl [A6]; · iexact A6
    isplitl [A7]; · iexact A7
    isplitl [Hcst0]; · iexact Hcst0
    isplitl [Hv8]; · iexact Hv8
    isplitl [Hcst1]; · iexact Hcst1
    isplitl [Hv9]; · iexact Hv9
    isplitl [Hcst2]; · iexact Hcst2
    isplitl [Hv10]; · iexact Hv10
    isplitl [Hcst3]; · iexact Hcst3
    iexact Hv11
  rw [← List.append_nil ([StableHlo.seq hostOps1] : List _), show ([StableHlo.seq hostOps1] : List (Prog _ PUnit)) = ([hostOps1] : List (List (HloOp τ sig (Elt F)))).map StableHlo.seq from rfl]
  iapply (Pipeline.wp_seqs_then (pcfgs (F := F)) defs₀ Variants.none c tailSet [] [hostOps1] hostOps1_tail sfx_fresh (Wend m c)) $$ Hpre
  iintro Hb
  rw [Pipeline.chain_nil, wp_pure, held_tail]
  imodintro
  iapply Hk
  icases Hb with ⟨-, A6, A7, -, -, -, Hv9, -, -, -, Hv11⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]
    · iapply (back6 m c)
      iexact A6
    · iapply (back7 m c)
      iexact A7
  unfold Zend
  isplitl [Harg0]; · iexact Harg0
  isplitl [Harg1]; · iexact Harg1
  isplitl [Hv9]; · iexact Hv9
  iexact Hv11

/-! ## The run -/

/-- What the run ends with, read per core. -/
def RunPost (r : PUnit × MemSt nD τ sig (Elt F)) : Prop :=
  ∀ c : Dev nD,
    (∀ w, r.2.mem ((cfg0.spec w).arr.view.loc (c.tc : Thread nD τ)) = (dats m 0 c).arrAt w cfg0.N)
    ∧ r.2.mem ((c.tc : Thread nD τ).loc main_arg0) = V m c main_arg0
    ∧ r.2.mem ((c.tc : Thread nD τ).loc main_arg1) = V m c main_arg1
    ∧ r.2.mem ((c.tc : Thread nD τ).loc main_v9) = Wfin m c main_v9
    ∧ r.2.mem ((c.tc : Thread nD τ).loc main_v11) = Wfin m c main_v11

set_option backward.isDefEq.respectTransparency.types false in
/-- At the compiled mesh, from any memory with zero counters: every weakly fair execution of @main terminates, no
    fault, in a state with the arguments as the region found them and the two results at the host operations' values. -/
theorem run_main : θ_run defs (onTc (τ := τ) (main (F := F))) (s₀ m ρ) (RunPost m) :=
  Pipeline.θ_run_region_pf_tail (pcfgs (F := F)) (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zend m)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg0) = V m c main_arg0
      ∧ s.mem ((c.tc : Thread nD τ).loc main_arg1) = V m c main_arg1
      ∧ s.mem ((c.tc : Thread nD τ).loc main_v9) = Wfin m c main_v9
      ∧ s.mem ((c.tc : Thread nD τ).loc main_v11) = Wfin m c main_v11)
    (hY := fun c s' => by
      unfold Zend
      iintro ⟨-, ⟨H0, H1, H9, H11⟩, HSI⟩
      icombine HSI H0 gives %h0
      icombine HSI H1 gives %h1
      icombine HSI H9 gives %h9
      icombine HSI H11 gives %h11
      imodintro
      isplitr; · ipureintro; exact ⟨Buf.eq_of_forall_mem_univ h0, Buf.eq_of_forall_mem_univ h1, Buf.eq_of_forall_mem_univ h9, Buf.eq_of_forall_mem_univ h11⟩
      iexact HSI)
    (hQ := fun s h => by unfold RunPost; exact fun c => ⟨(h c).1, (h c).2.2⟩)

end Cert.KernelIdeal.Hand

end
-- ==== Proof.KI.Frame.lean ====
/-
  The frame: the run ends with both argument arrays as launched (no host operation writes them, and the region only
  reads the arrays made from them).
-/
import proofs.«119346_j15221364097742_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Every weakly fair execution of @main terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_main_arg0 m c), (h c).2.2.1.trans (V_main_arg1 m c)⟩) (run_main m ρ)

end Cert.KernelIdeal.Hand

end
-- ==== Proof.MineMath.lean ====
/-
  The order facts behind mining a row's hardest positive and hardest negative.

  The clipped root  root v = sqrt (max v eps)  is a monotone map of the extended reals into themselves that fixes
  +inf. A monotone map commutes with a maximum and with a minimum, hence with a fold of either; so the root of the
  largest squared distance is the largest root, and the root of the smallest is the smallest. For the maximum the
  fold starts at -inf and root (-inf) is not -inf, but every row is alike to itself, so the fold always contains the
  root of a genuine squared distance, which dominates root (-inf); for the minimum the fold starts at +inf, which
  root fixes. No finiteness of the points is used.

  Last, a fold of max (or of min) over the 4096 columns is the running maximum (minimum) over its four tiles of 1024
  columns, each tile folded on its own: both sides have the same upper (lower) bounds.
-/
import proofs.«119346_j15221364097742_2_alg».proof.Proof.Spec
import Mathlib.Data.Finset.Fold
import Mathlib.Tactic.Linarith
import Mathlib.Tactic.Positivity
import Mathlib.Tactic.FinCases

noncomputable section

namespace Cert.MineMath

open Idealize.ShloMosaic Cert.Spec

/-! ### The clipped root is monotone -/

/-- The square root of the extended reals is monotone (bottom below zero and at -inf, +inf at +inf). -/
theorem sqrt_mono : Monotone Ideal.sqrt := by
  intro a b hab
  induction a using EReal.rec with
  | bot => rw [Ideal.sqrt_bot]; exact bot_le
  | top =>
    have hb : b = ⊤ := top_le_iff.mp hab
    subst hb
    exact le_rfl
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- The clipped root is monotone. -/
theorem root_mono : Monotone root := fun _ _ h => sqrt_mono (max_le_max h le_rfl)

/-- The clipped root fixes +inf. -/
theorem root_top : root ⊤ = ⊤ := by
  unfold root
  rw [max_eq_left le_top, Ideal.sqrt_top]

/-- The clipping constant is a positive real. -/
theorem eps_pos_real : ∃ r : ℝ, 0 < r ∧ eps = (r : EReal) := by
  refine ⟨9223372 * (2 ^ 63)⁻¹, by positivity, ?_⟩
  simp [eps, Ideal.ofBits, Ideal.ieee]

/-! ### A monotone map commutes with a fold of max and of min -/

theorem map_fold_max {ι : Type*} (f : EReal → EReal) (hf : Monotone f) (s : Finset ι) (b : EReal) (g : ι → EReal) :
    f (s.fold max b g) = s.fold max (f b) (fun j => f (g j)) := by
  classical
  refine Finset.induction_on s ?_ ?_
  · simp
  · intro a s ha ih
    rw [Finset.fold_insert ha, Finset.fold_insert ha, hf.map_max, ih]

theorem map_fold_min {ι : Type*} (f : EReal → EReal) (hf : Monotone f) (s : Finset ι) (b : EReal) (g : ι → EReal) :
    f (s.fold min b g) = s.fold min (f b) (fun j => f (g j)) := by
  classical
  refine Finset.induction_on s ?_ ?_
  · simp
  · intro a s ha ih
    rw [Finset.fold_insert ha, Finset.fold_insert ha, hf.map_min, ih]

/-! ### The mined distances as folds of roots -/

/-- The hardest positive distance of row i: the largest root over the rows alike to i. -/
theorem root_ap2 (x : Pts) (t : Labels) (i : Fin 4096) :
    root (ap2 x t i)
      = (Finset.univ : Finset (Fin 4096)).fold max ⊥ (fun j => if alike t i j then root (d2 x i j) else ⊥) := by
  have hii : alike t i i := rfl
  have hself : root ⊥ ≤ (Finset.univ : Finset (Fin 4096)).fold max ⊥
      (fun j => if alike t i j then root (d2 x i j) else ⊥) := by
    refine le_trans (root_mono (bot_le : ⊥ ≤ d2 x i i)) ?_
    rw [Finset.le_fold_max]
    exact Or.inr ⟨i, Finset.mem_univ _, by rw [if_pos hii]⟩
  unfold ap2
  rw [map_fold_max root root_mono]
  apply le_antisymm
  · rw [Finset.fold_max_le]
    refine ⟨hself, fun j _ => ?_⟩
    by_cases h : alike t i j
    · rw [if_pos h, Finset.le_fold_max]
      exact Or.inr ⟨j, Finset.mem_univ _, by rw [if_pos h]⟩
    · rw [if_neg h]; exact hself
  · rw [Finset.fold_max_le]
    refine ⟨bot_le, fun j _ => ?_⟩
    rw [Finset.le_fold_max]
    refine Or.inr ⟨j, Finset.mem_univ _, ?_⟩
    by_cases h : alike t i j
    · rw [if_pos h, if_pos h]
    · rw [if_neg h]; exact bot_le

/-- The hardest negative distance of row i: the smallest root over the rows not alike to i. -/
theorem root_an2 (x : Pts) (t : Labels) (i : Fin 4096) :
    root (an2 x t i)
      = (Finset.univ : Finset (Fin 4096)).fold min ⊤ (fun j => if alike t i j then ⊤ else root (d2 x i j)) := by
  unfold an2
  rw [map_fold_min root root_mono, root_top]
  refine congrArg (fun g => (Finset.univ : Finset (Fin 4096)).fold min ⊤ g) (funext fun j => ?_)
  by_cases h : alike t i j
  · rw [if_pos h, if_pos h, root_top]
  · rw [if_neg h, if_neg h]

/-! ### A row's fold over its four column tiles -/

/-- Every column of 4096 is column r of tile k, for one k below 4 and one r below 1024. -/
theorem exists_tile (j : Fin 4096) :
    ∃ (k : Fin 4) (r : Fin 1024), j = ⟨1024 * k.val + r.val, by omega⟩ :=
  ⟨⟨j.val / 1024, by omega⟩, ⟨j.val % 1024, by omega⟩, Fin.ext (by show j.val = 1024 * (j.val / 1024) + j.val % 1024; omega)⟩

/-- The maximum of a row from -inf is the running maximum, started at -inf, of its four tiles' maxima; the tiles are
    given as any h with  h c q = g (1024 c + q). -/
theorem fold_max_tiles_of (g : Fin 4096 → EReal) (h : Fin 4 → Fin 1024 → EReal)
    (hg : ∀ (c : Fin 4) (q : Fin 1024), h c q = g ⟨1024 * c.val + q.val, by omega⟩) :
    (Finset.univ : Finset (Fin 4096)).fold max ⊥ g
      = max (max (max (max ⊥ ((Finset.univ : Finset (Fin 1024)).fold max ⊥ (h 0)))
          ((Finset.univ : Finset (Fin 1024)).fold max ⊥ (h 1)))
          ((Finset.univ : Finset (Fin 1024)).fold max ⊥ (h 2)))
          ((Finset.univ : Finset (Fin 1024)).fold max ⊥ (h 3)) := by
  refine eq_of_forall_ge_iff fun c => ?_
  simp only [max_le_iff, Finset.fold_max_le, Finset.mem_univ, forall_true_left, bot_le, true_and]
  constructor
  · intro H
    refine ⟨⟨⟨?_, ?_⟩, ?_⟩, ?_⟩ <;> intro q <;> rw [hg] <;> exact H _
  · rintro ⟨⟨⟨H0, H1⟩, H2⟩, H3⟩ j
    obtain ⟨k, r, rfl⟩ := exists_tile j
    rw [← hg k r]
    fin_cases k
    · exact H0 r
    · exact H1 r
    · exact H2 r
    · exact H3 r

/-- The same with the tiles written out:  tile c, column q  is column  1024 c + q. -/
theorem fold_max_tiles (g : Fin 4096 → EReal) :
    (Finset.univ : Finset (Fin 4096)).fold max ⊥ g
      = max (max (max (max ⊥
          ((Finset.univ : Finset (Fin 1024)).fold max ⊥ fun q => g ⟨1024 * 0 + q.val, by omega⟩))
          ((Finset.univ : Finset (Fin 1024)).fold max ⊥ fun q => g ⟨1024 * 1 + q.val, by omega⟩))
          ((Finset.univ : Finset (Fin 1024)).fold max ⊥ fun q => g ⟨1024 * 2 + q.val, by omega⟩))
          ((Finset.univ : Finset (Fin 1024)).fold max ⊥ fun q => g ⟨1024 * 3 + q.val, by omega⟩) :=
  fold_max_tiles_of g (fun c q => g ⟨1024 * c.val + q.val, by omega⟩) (fun _ _ => rfl)

/-- The minimum of a row from +inf is the running minimum, started at +inf, of its four tiles' minima. -/
theorem fold_min_tiles_of (g : Fin 4096 → EReal) (h : Fin 4 → Fin 1024 → EReal)
    (hg : ∀ (c : Fin 4) (q : Fin 1024), h c q = g ⟨1024 * c.val + q.val, by omega⟩) :
    (Finset.univ : Finset (Fin 4096)).fold min ⊤ g
      = min (min (min (min ⊤ ((Finset.univ : Finset (Fin 1024)).fold min ⊤ (h 0)))
          ((Finset.univ : Finset (Fin 1024)).fold min ⊤ (h 1)))
          ((Finset.univ : Finset (Fin 1024)).fold min ⊤ (h 2)))
          ((Finset.univ : Finset (Fin 1024)).fold min ⊤ (h 3)) := by
  refine eq_of_forall_le_iff fun c => ?_
  simp only [le_min_iff, Finset.le_fold_min, Finset.mem_univ, forall_true_left, le_top, true_and]
  constructor
  · intro H
    refine ⟨⟨⟨?_, ?_⟩, ?_⟩, ?_⟩ <;> intro q <;> rw [hg] <;> exact H _
  · rintro ⟨⟨⟨H0, H1⟩, H2⟩, H3⟩ j
    obtain ⟨k, r, rfl⟩ := exists_tile j
    rw [← hg k r]
    fin_cases k
    · exact H0 r
    · exact H1 r
    · exact H2 r
    · exact H3 r

/-- The same with the tiles written out. -/
theorem fold_min_tiles (g : Fin 4096 → EReal) :
    (Finset.univ : Finset (Fin 4096)).fold min ⊤ g
      = min (min (min (min ⊤
          ((Finset.univ : Finset (Fin 1024)).fold min ⊤ fun q => g ⟨1024 * 0 + q.val, by omega⟩))
          ((Finset.univ : Finset (Fin 1024)).fold min ⊤ fun q => g ⟨1024 * 1 + q.val, by omega⟩))
          ((Finset.univ : Finset (Fin 1024)).fold min ⊤ fun q => g ⟨1024 * 2 + q.val, by omega⟩))
          ((Finset.univ : Finset (Fin 1024)).fold min ⊤ fun q => g ⟨1024 * 3 + q.val, by omega⟩) :=
  fold_min_tiles_of g (fun c q => g ⟨1024 * c.val + q.val, by omega⟩) (fun _ _ => rfl)

end Cert.MineMath

end
-- ==== Proof.KernelJoin.lean ====
/-
  Joining the kernel's pieces to the shared specification: pure facts, no program.

  * The kernel's host tail on one [4096,1] array: a float sum over both axes from the zero word, divided by the
    word of 4096, is the specification's mean of the 4096 entries of the one column.
  * A row's mined squared distance out of its four column tiles: the running maximum from -inf (minimum from +inf)
    of the four tiles' own maxima (minima) over the rows alike (not alike) to row i is the fold over all 4096 rows.
-/
import proofs.«119346_j15221364097742_2_alg».proof.Proof.Spec
import proofs.«119346_j15221364097742_2_alg».proof.Proof.MineMath
import proofs.«119346_j15221364097742_2_alg».proof.KernelIdeal
import Mathlib.Algebra.BigOperators.Fin

noncomputable section

open scoped BigOperators

namespace Cert.KernelJoin

open Cert.KernelIdeal Idealize.ShloMosaic Idealize.ShloMosaic.ValueIdx Cert.Spec

/-! ### The host tail: the mean of a column of 4096 -/

/-- The sum over both axes of a [4096,1] array from the zero word, divided by the word of 4096. -/
theorem hostMean_apply (a : FVec Ideal S4096x1 .f32) (h' : S4096x1.ReducesTo [0, 1] S_) (hu : 0 < S_.numel) :
    Host.divf (F := Ideal) (Host.reduceAdd (F := Ideal) a (constant (F := Ideal) S_ .f32 0x00000000#32) h' hu)
        (constant (F := Ideal) S_ .f32 0x45800000#32)
      = fun _ => Ideal.div (zero + ∑ i : Fin 4096, a (ix2 i (0 : Fin 1))) n4096 := by
  funext j
  show Ideal.div (Ideal.hostReduceAdd h' a (Ideal.ofBits .f32 0x00000000#32) j) (Ideal.ofBits .f32 0x45800000#32) = _
  rw [Ideal.hostReduceAdd_total h' (fun b => b.elim0) a _ j, sum_idx2]
  simp only [Fin.sum_univ_one]
  rfl

/-- When the column holds the rows' margin losses, the host tail is the mean loss. -/
theorem hostMean_loss (x : Pts) (t : Labels) (a : FVec Ideal S4096x1 .f32) (h' : S4096x1.ReducesTo [0, 1] S_)
    (hu : 0 < S_.numel) (ha : ∀ i : Fin 4096, a (ix2 i (0 : Fin 1)) = lossRow (anD x t i) (apD x t i)) :
    Host.divf (F := Ideal) (Host.reduceAdd (F := Ideal) a (constant (F := Ideal) S_ .f32 0x00000000#32) h' hu)
        (constant (F := Ideal) S_ .f32 0x45800000#32)
      = fun _ => lossOut x t := by
  rw [hostMean_apply, Finset.sum_congr rfl (fun i _ => ha i)]
  rfl

/-- When the column holds the rows' precision indicators, the host tail is the mean precision. -/
theorem hostMean_prec (x : Pts) (t : Labels) (a : FVec Ideal S4096x1 .f32) (h' : S4096x1.ReducesTo [0, 1] S_)
    (hu : 0 < S_.numel) (ha : ∀ i : Fin 4096, a (ix2 i (0 : Fin 1)) = precRow (anD x t i) (apD x t i)) :
    Host.divf (F := Ideal) (Host.reduceAdd (F := Ideal) a (constant (F := Ideal) S_ .f32 0x00000000#32) h' hu)
        (constant (F := Ideal) S_ .f32 0x45800000#32)
      = fun _ => precOut x t := by
  rw [hostMean_apply, Finset.sum_congr rfl (fun i _ => ha i)]
  rfl

/-! ### The four column tiles of a row, joined -/

/-- The running maximum from -inf of the four tiles' maxima over the rows alike to row i is the largest squared
    distance from row i to a row alike to it. -/
theorem join_max (x : Pts) (t : Labels) (i : Fin 4096) (T : Fin 4 → EReal)
    (hT : ∀ j : Fin 4, T j = (Finset.univ : Finset (Fin 1024)).fold max ⊥
      (fun q => if alike t i ⟨1024 * j.val + q.val, by omega⟩ then d2 x i ⟨1024 * j.val + q.val, by omega⟩ else ⊥)) :
    max (max (max (max ⊥ (T 0)) (T 1)) (T 2)) (T 3) = ap2 x t i := by
  unfold ap2
  rw [hT 0, hT 1, hT 2, hT 3]
  exact (MineMath.fold_max_tiles_of (fun j => if alike t i j then d2 x i j else ⊥)
    (fun c q => if alike t i ⟨1024 * c.val + q.val, by omega⟩ then d2 x i ⟨1024 * c.val + q.val, by omega⟩ else ⊥)
    (fun _ _ => rfl)).symm

/-- The running minimum from +inf of the four tiles' minima over the rows not alike to row i is the smallest squared
    distance from row i to a row not alike to it. -/
theorem join_min (x : Pts) (t : Labels) (i : Fin 4096) (T : Fin 4 → EReal)
    (hT : ∀ j : Fin 4, T j = (Finset.univ : Finset (Fin 1024)).fold min ⊤
      (fun q => if alike t i ⟨1024 * j.val + q.val, by omega⟩ then ⊤ else d2 x i ⟨1024 * j.val + q.val, by omega⟩)) :
    min (min (min (min ⊤ (T 0)) (T 1)) (T 2)) (T 3) = an2 x t i := by
  unfold an2
  rw [hT 0, hT 1, hT 2, hT 3]
  exact (MineMath.fold_min_tiles_of (fun j => if alike t i j then ⊤ else d2 x i j)
    (fun c q => if alike t i ⟨1024 * c.val + q.val, by omega⟩ then ⊤ else d2 x i ⟨1024 * c.val + q.val, by omega⟩)
    (fun _ _ => rfl)).symm

/-- The same for a running value kept tile after tile: reset to -inf and joined with the first tile, then joined
    with each next tile. -/
theorem run_max (x : Pts) (t : Labels) (i : Fin 4096) (T run : Fin 4 → EReal)
    (hT : ∀ j : Fin 4, T j = (Finset.univ : Finset (Fin 1024)).fold max ⊥
      (fun q => if alike t i ⟨1024 * j.val + q.val, by omega⟩ then d2 x i ⟨1024 * j.val + q.val, by omega⟩ else ⊥))
    (h0 : run 0 = max ⊥ (T 0)) (h1 : run 1 = max (run 0) (T 1)) (h2 : run 2 = max (run 1) (T 2))
    (h3 : run 3 = max (run 2) (T 3)) : run 3 = ap2 x t i := by
  rw [h3, h2, h1, h0]
  exact join_max x t i T hT

theorem run_min (x : Pts) (t : Labels) (i : Fin 4096) (T run : Fin 4 → EReal)
    (hT : ∀ j : Fin 4, T j = (Finset.univ : Finset (Fin 1024)).fold min ⊤
      (fun q => if alike t i ⟨1024 * j.val + q.val, by omega⟩ then ⊤ else d2 x i ⟨1024 * j.val + q.val, by omega⟩))
    (h0 : run 0 = min ⊤ (T 0)) (h1 : run 1 = min (run 0) (T 1)) (h2 : run 2 = min (run 1) (T 2))
    (h3 : run 3 = min (run 2) (T 3)) : run 3 = an2 x t i := by
  rw [h3, h2, h1, h0]
  exact join_min x t i T hT

end Cert.KernelJoin

end
-- ==== Proof.KI.Chain.lean ====
/-
  The kernel's two results at the ideal values.

  A row tile's running maximum, after the four column tiles of its sweep, is the row's largest squared distance to a
  row with its label over all 4096 columns, and the running minimum the smallest to a row with another label; the last
  tile turns them into the row's loss and precision entries, the write-backs lay those down the two result arrays, and
  the host operations after the region average each array.
-/
import proofs.«119346_j15221364097742_2_alg».proof.Proof.KI.MineVals
import proofs.«119346_j15221364097742_2_alg».proof.Proof.KI.ArrFinal
import proofs.«119346_j15221364097742_2_alg».proof.Proof.KI.Frame
import proofs.«119346_j15221364097742_2_alg».proof.Proof.KernelJoin
import proofs.«119346_j15221364097742_2_alg».proof.Proof.TilePayMine

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-- What the two scratch buffers hold after point t. -/
def s0At (c : Dev nD) (t : Fin cfg0.N) : Vec Ideal S512x1 .f32 := (outsAt m c t.val t.isLt).2.2.1
def s1At (c : Dev nD) (t : Fin cfg0.N) : Vec Ideal S512x1 .f32 := (outsAt m c t.val t.isLt).2.2.2

/-- At the first column tile the running maximum is reset to -inf and then takes the tile's maximum. -/
theorem s0At_first (c : Dev nD) (t : Fin cfg0.N) (h0 : t.val % 4 = 0) (p : Fin 512) :
    (s0At m c t (ix2 p (0 : Fin 1)) : EReal) = max ⊥ (mx m c t (ix2 p (0 : Fin 1)) : EReal) := by
  have h1 : ¬ t.val % 4 = 3 := by omega
  unfold s0At
  rw [outsAt_A m c t h0 h1, stepA_s0 m c t h0 h1]
  exact (Cert.TilePay.pay1_apply _ _ p).trans (by rw [Cert.TilePay.pay7_apply])

theorem s1At_first (c : Dev nD) (t : Fin cfg0.N) (h0 : t.val % 4 = 0) (p : Fin 512) :
    (s1At m c t (ix2 p (0 : Fin 1)) : EReal) = min ⊤ (mn m c t (ix2 p (0 : Fin 1)) : EReal) := by
  have h1 : ¬ t.val % 4 = 3 := by omega
  unfold s1At
  rw [outsAt_A m c t h0 h1, stepA_s1 m c t h0 h1]
  exact (Cert.TilePay.pay2_apply _ _ p).trans (by rw [Cert.TilePay.pay8_apply])

/-- At a later column tile it is the maximum of what the tile before left and this tile's maximum. -/
theorem s0At_next (c : Dev nD) (t : Fin cfg0.N) (h0 : ¬ t.val % 4 = 0) (p : Fin 512) :
    (s0At m c t (ix2 p (0 : Fin 1)) : EReal)
      = max (s0At m c ⟨t.val - 1, Nat.lt_of_le_of_lt (Nat.sub_le _ _) t.isLt⟩ (ix2 p (0 : Fin 1)) : EReal) (mx m c t (ix2 p (0 : Fin 1)) : EReal) := by
  unfold s0At
  by_cases h1 : t.val % 4 = 3
  · rw [outsAt_C m c t h0 h1, stepC_s0 m c t h0 h1]
    exact Cert.TilePay.pay1_apply _ _ p
  · rw [outsAt_B m c t h0 h1, stepB_s0 m c t h0 h1]
    exact Cert.TilePay.pay1_apply _ _ p

theorem s1At_next (c : Dev nD) (t : Fin cfg0.N) (h0 : ¬ t.val % 4 = 0) (p : Fin 512) :
    (s1At m c t (ix2 p (0 : Fin 1)) : EReal)
      = min (s1At m c ⟨t.val - 1, Nat.lt_of_le_of_lt (Nat.sub_le _ _) t.isLt⟩ (ix2 p (0 : Fin 1)) : EReal) (mn m c t (ix2 p (0 : Fin 1)) : EReal) := by
  unfold s1At
  by_cases h1 : t.val % 4 = 3
  · rw [outsAt_C m c t h0 h1, stepC_s1 m c t h0 h1]
    exact Cert.TilePay.pay2_apply _ _ p
  · rw [outsAt_B m c t h0 h1, stepB_s1 m c t h0 h1]
    exact Cert.TilePay.pay2_apply _ _ p

/-- Column tile j of row tile r. -/
def pt (r : Fin 8) (j : Fin 4) : Fin cfg0.N := ⟨4 * r.val + j.val, by have : cfg0.N = 32 := N_0; omega⟩

theorem pt_pred (r : Fin 8) (j : Fin 4) (hj : j.val ≠ 0) :
    (⟨(pt r j).val - 1, Nat.lt_of_le_of_lt (Nat.sub_le _ _) (pt r j).isLt⟩ : Fin cfg0.N) = pt r ⟨j.val - 1, by omega⟩ :=
  Fin.ext (by show 4 * r.val + j.val - 1 = 4 * r.val + (j.val - 1); omega)

theorem rowOf_pt (r : Fin 8) (j : Fin 4) (p : Fin 512) : rowOf (pt r j) p = ⟨512 * r.val + p.val, by omega⟩ :=
  Fin.ext (by show 512 * ((4 * r.val + j.val) / 4) + p.val = 512 * r.val + p.val; omega)

theorem colOf_pt (r : Fin 8) (j : Fin 4) (q : Fin 1024) : colOf (pt r j) q = ⟨1024 * j.val + q.val, by omega⟩ :=
  Fin.ext (by show 1024 * ((4 * r.val + j.val) % 4) + q.val = 1024 * j.val + q.val; omega)

/-- After the last column tile the running maximum of row p of row tile r is the row's mined squared distance. -/
theorem s0At_last (c : Dev nD) (r : Fin 8) (p : Fin 512) :
    (s0At m c (pt r 3) (ix2 p (0 : Fin 1)) : EReal) = ap2 (xOf m c) (tlOf m c) ⟨512 * r.val + p.val, by omega⟩ := by
  refine Cert.KernelJoin.run_max (xOf m c) (tlOf m c) ⟨512 * r.val + p.val, by omega⟩
    (fun j => (mx m c (pt r j) (ix2 p (0 : Fin 1)) : EReal)) (fun j => (s0At m c (pt r j) (ix2 p (0 : Fin 1)) : EReal)) (fun j => ?_) ?_ ?_ ?_ ?_
  · rw [mx_apply m c (pt r j) p, rowOf_pt r j p]
    exact congrArg (fun f => (Finset.univ : Finset (Fin 1024)).fold max ⊥ f) (funext fun q => by rw [colOf_pt r j q])
  · exact s0At_first m c (pt r 0) (by show (4 * r.val + 0) % 4 = 0; omega) p
  · have := s0At_next m c (pt r 1) (by show ¬ (4 * r.val + 1) % 4 = 0; omega) p
    rw [pt_pred r 1 (by decide)] at this; exact this
  · have := s0At_next m c (pt r 2) (by show ¬ (4 * r.val + 2) % 4 = 0; omega) p
    rw [pt_pred r 2 (by decide)] at this; exact this
  · have := s0At_next m c (pt r 3) (by show ¬ (4 * r.val + 3) % 4 = 0; omega) p
    rw [pt_pred r 3 (by decide)] at this; exact this

theorem s1At_last (c : Dev nD) (r : Fin 8) (p : Fin 512) :
    (s1At m c (pt r 3) (ix2 p (0 : Fin 1)) : EReal) = an2 (xOf m c) (tlOf m c) ⟨512 * r.val + p.val, by omega⟩ := by
  refine Cert.KernelJoin.run_min (xOf m c) (tlOf m c) ⟨512 * r.val + p.val, by omega⟩
    (fun j => (mn m c (pt r j) (ix2 p (0 : Fin 1)) : EReal)) (fun j => (s1At m c (pt r j) (ix2 p (0 : Fin 1)) : EReal)) (fun j => ?_) ?_ ?_ ?_ ?_
  · rw [mn_apply m c (pt r j) p, rowOf_pt r j p]
    exact congrArg (fun f => (Finset.univ : Finset (Fin 1024)).fold min ⊤ f) (funext fun q => by rw [colOf_pt r j q])
  · exact s1At_first m c (pt r 0) (by show (4 * r.val + 0) % 4 = 0; omega) p
  · have := s1At_next m c (pt r 1) (by show ¬ (4 * r.val + 1) % 4 = 0; omega) p
    rw [pt_pred r 1 (by decide)] at this; exact this
  · have := s1At_next m c (pt r 2) (by show ¬ (4 * r.val + 2) % 4 = 0; omega) p
    rw [pt_pred r 2 (by decide)] at this; exact this
  · have := s1At_next m c (pt r 3) (by show ¬ (4 * r.val + 3) % 4 = 0; omega) p
    rw [pt_pred r 3 (by decide)] at this; exact this

/-- A point at a last column tile is the last tile of its row tile. -/
theorem eq_pt_of_last (t : Fin cfg0.N) (h3 : t.val % 4 = 3) : ∃ r : Fin 8, t = pt r 3 :=
  ⟨⟨t.val / 4, by have := tval_lt t; omega⟩, Fin.ext (by show t.val = 4 * (t.val / 4) + 3; omega)⟩

/-- What the last column tile stores into the first result window: the row's loss entry. -/
theorem after6_last (c : Dev nD) (t : Fin cfg0.N) (h3 : t.val % 4 = 3) (p : Fin 512) :
    ((dats m 0 c).after 6 t : S512x1.Idx → EReal) (ix2 p (0 : Fin 1))
      = lossRow (anD (xOf m c) (tlOf m c) (rowOf t p)) (apD (xOf m c) (tlOf m c) (rowOf t p)) := by
  have h0 : ¬ t.val % 4 = 0 := by omega
  have e0 : k0_pay1 (mx m c t) (outsAt m c (t.val - 1) (Nat.lt_of_le_of_lt (Nat.sub_le _ _) t.isLt)).2.2.1 = s0At m c t := by
    unfold s0At; rw [outsAt_C m c t h0 h3, stepC_s0 m c t h0 h3]
  have e1 : k0_pay2 (mn m c t) (outsAt m c (t.val - 1) (Nat.lt_of_le_of_lt (Nat.sub_le _ _) t.isLt)).2.2.2 = s1At m c t := by
    unfold s1At; rw [outsAt_C m c t h0 h3, stepC_s1 m c t h0 h3]
  rw [after6 m c t, outsAt_C m c t h0 h3, stepC_o6 m c t h0 h3, e0, e1]
  refine (Cert.TilePay.pay5_apply _ _ p).trans ?_
  obtain ⟨r, rfl⟩ := eq_pt_of_last t h3
  rw [s0At_last m c r p, s1At_last m c r p, rowOf_pt r 3 p]
  rfl

theorem after7_last (c : Dev nD) (t : Fin cfg0.N) (h3 : t.val % 4 = 3) (p : Fin 512) :
    ((dats m 0 c).after 7 t : S512x1.Idx → EReal) (ix2 p (0 : Fin 1))
      = precRow (anD (xOf m c) (tlOf m c) (rowOf t p)) (apD (xOf m c) (tlOf m c) (rowOf t p)) := by
  have h0 : ¬ t.val % 4 = 0 := by omega
  have e0 : k0_pay1 (mx m c t) (outsAt m c (t.val - 1) (Nat.lt_of_le_of_lt (Nat.sub_le _ _) t.isLt)).2.2.1 = s0At m c t := by
    unfold s0At; rw [outsAt_C m c t h0 h3, stepC_s0 m c t h0 h3]
  have e1 : k0_pay2 (mn m c t) (outsAt m c (t.val - 1) (Nat.lt_of_le_of_lt (Nat.sub_le _ _) t.isLt)).2.2.2 = s1At m c t := by
    unfold s1At; rw [outsAt_C m c t h0 h3, stepC_s1 m c t h0 h3]
  rw [after7 m c t, outsAt_C m c t h0 h3, stepC_o7 m c t h0 h3, e0, e1]
  refine (Cert.TilePay.pay6_apply _ _ p).trans ?_
  obtain ⟨r, rfl⟩ := eq_pt_of_last t h3
  rw [s0At_last m c r p, s1At_last m c r p, rowOf_pt r 3 p]
  rfl

/-- The two result arrays after the region: row i holds row i's loss / precision entry. -/
def lossArr (c : Dev nD) : FVec Ideal S4096x1 .f32 := fun y => lossRow (anD (xOf m c) (tlOf m c) (y 0)) (apD (xOf m c) (tlOf m c) (y 0))
def precArr (c : Dev nD) : FVec Ideal S4096x1 .f32 := fun y => precRow (anD (xOf m c) (tlOf m c) (y 0)) (apD (xOf m c) (tlOf m c) (y 0))

theorem arr6_val (c : Dev nD) : (dats m 0 c).arrAt 6 cfg0.N = lossArr m c :=
  arr6_final m c (lossArr m c) fun t h3 p => after6_last m c t h3 p
theorem arr7_val (c : Dev nD) : (dats m 0 c).arrAt 7 cfg0.N = precArr m c :=
  arr7_final m c (precArr m c) fun t h3 p => after7_last m c t h3 p

/-- The first result: the host operations after the region average the loss array. -/
theorem Wfin9_val (c : Dev nD) : Wfin m c main_v9 = fun _ => lossOut (xOf m c) (tlOf m c) := by
  have e : Wfin m c main_v9 = Host.divf (F := Ideal) (Host.reduceAdd (F := Ideal) (Wend m c (Proc.devRef .tc main_v7_0))
      (constant (F := Ideal) S_ .f32 0x00000000#32) reducesTo_S4096x1_S_d0_1 h_S_) (constant (F := Ideal) S_ .f32 0x45800000#32) := by
    unfold Wfin
    simp only [hostOps1, List.flatten_cons, List.flatten_nil, List.append_nil]
    after_results <;> rfl
  rw [e, Wend6 m c, arr6_val m c]
  exact Cert.KernelJoin.hostMean_loss (xOf m c) (tlOf m c) (lossArr m c) _ _ fun i => rfl

theorem Wfin11_val (c : Dev nD) : Wfin m c main_v11 = fun _ => precOut (xOf m c) (tlOf m c) := by
  have e : Wfin m c main_v11 = Host.divf (F := Ideal) (Host.reduceAdd (F := Ideal) (Wend m c (Proc.devRef .tc main_v7_1))
      (constant (F := Ideal) S_ .f32 0x00000000#32) reducesTo_S4096x1_S_d0_1 h_S_) (constant (F := Ideal) S_ .f32 0x45800000#32) := by
    unfold Wfin
    simp only [hostOps1, List.flatten_cons, List.flatten_nil, List.append_nil]
    after_results <;> rfl
  rw [e, Wend7 m c, arr7_val m c]
  exact Cert.KernelJoin.hostMean_prec (xOf m c) (tlOf m c) (precArr m c) _ _ fun i => rfl

/-- THE KERNEL'S RUN at the ideal values: it ends with the two results at the mean loss and the mean precision of the
    argument arrays, which are unchanged. -/
theorem run : θ_run defs (onTc (τ := τ) (main (F := Ideal))) ⟨m, fun _ => 0, ρ⟩ (fun r => ∀ c : Dev nD,
      r.2.mem ((c.tc : Thread nD τ).loc main_v9) = (fun _ => lossOut (m ((c.tc : Thread nD τ).loc main_arg0)) (m ((c.tc : Thread nD τ).loc main_arg1)))
      ∧ r.2.mem ((c.tc : Thread nD τ).loc main_v11) = (fun _ => precOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.2.1.trans (Wfin9_val m c), (h c).2.2.2.2.trans (Wfin11_val m c),
    (h c).2.1.trans (V_main_arg0 m c), (h c).2.2.1.trans (V_main_arg1 m c)⟩) (run_main m ρ)

end Cert.KernelIdeal.HandVal

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.RefSide.lean ====
/-
  The reference program's two results, read as the shared specification's two means.

  Stage by stage: the row sums of squares are the squared norms; their two broadcasts added, less twice the product
  of the array with its transpose, is the squared distance of two rows; clipped below and rooted it is the clipped
  distance; the label comparison selects it against -inf for the maximum along a row and +inf against it for the
  minimum along a row; those two reduces are folds of max and of min over the 4096 columns, which the order facts
  turn into the roots of the mined squared distances; the margin loss and the precision indicator of every row are
  then summed and divided by 4096.
-/
import proofs.«119346_j15221364097742_2_alg».proof.Proof.Gen.ReferenceIdeal.Read
import proofs.«119346_j15221364097742_2_alg».proof.Proof.Spec
import proofs.«119346_j15221364097742_2_alg».proof.Proof.MineMath
import proofs.«119346_j15221364097742_2_alg».proof.Proof.LibHostRowSum
import proofs.«119346_j15221364097742_2_alg».proof.Proof.LibRealOps

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The two argument arrays: the points and the labels. -/
abbrev X := (⟨S4096x1024, .f32⟩ : BufTy).Contents (Elt Ideal)
abbrev L := (⟨S4096, .i32⟩ : BufTy).Contents (Elt Ideal)

/-! ### The literals -/

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-! ### Index equations -/

theorem idx_rowsum (p : Fin 4096) (k : Fin 1024) : idx_main_v1 (ix1 p) k = ix2 p k :=
  funext fun a => by match a with | ⟨0, _⟩ => rfl | ⟨1, _⟩ => rfl

theorem idx_sq_left (p q : Fin 4096) : idx_main_v2 (idx_main_v4 (ix2 p q)) = ix1 p :=
  funext fun a => by match a with | ⟨0, _⟩ => rfl

theorem idx_sq_right (p q : Fin 4096) : idx_main_v3 (idx_main_v5 (ix2 p q)) = ix1 q :=
  funext fun a => by match a with | ⟨0, _⟩ => rfl

theorem idx_dot_left (p q : Fin 4096) (k : Fin 1024) : lidx_main_v8 (ix2 p q) k = ix2 p k :=
  funext fun a => by match a with | ⟨0, _⟩ => rfl | ⟨1, _⟩ => rfl

theorem idx_dot_right (p q : Fin 4096) (k : Fin 1024) : idx_main_v7 (ridx_main_v8 (ix2 p q) k) = ix2 q k :=
  funext fun a => by match a with | ⟨0, _⟩ => rfl | ⟨1, _⟩ => rfl

theorem idx_label_left (p q : Fin 4096) : idx_main_v14 (idx_main_v16 (ix2 p q)) = ix1 p :=
  funext fun a => by match a with | ⟨0, _⟩ => rfl

theorem idx_label_right (p q : Fin 4096) : idx_main_v15 (idx_main_v17 (ix2 p q)) = ix1 q :=
  funext fun a => by match a with | ⟨0, _⟩ => rfl

/-! ### The squared distance and the clipped distance of two rows -/

/-- The row sums of squares are the squared norms. -/
theorem sq_apply (x : X) (p : Fin 4096) : val_main_v1 (F := Ideal) x (ix1 p) = sq x p := by
  rw [val_main_v1_apply]
  simp only [val_main_cst_apply, val_main_v0_apply, Ideal.mulf_def, Ideal.ofBits_def, idx_rowsum]
  rfl

/-- Entry (p, q) before the clip: the squared distance of rows p and q. -/
theorem d2_apply (x : X) (p q : Fin 4096) : val_main_v11 (F := Ideal) x (ix2 p q) = d2 x p q := by
  rw [val_main_v11_apply, val_main_v6_apply, val_main_v4_apply, val_main_v2_apply, val_main_v5_apply, val_main_v3_apply,
    val_main_v10_apply, val_main_v9_apply, val_main_cst_0_apply, val_main_v8_apply, idx_sq_left, idx_sq_right,
    sq_apply, sq_apply]
  simp only [val_main_v7_apply, idx_dot_left, idx_dot_right, Ideal.addf_def, Ideal.subf_def, Ideal.mulf_def,
    Ideal.ofBits_def]
  rfl

/-- Entry (p, q) of the distance matrix: the clipped distance of rows p and q. -/
theorem dist_apply (x : X) (p q : Fin 4096) : val_main_v13 (F := Ideal) x (ix2 p q) = root (d2 x p q) := by
  rw [val_main_v13_apply, val_main_v12_apply, val_main_call0_v1_apply, val_main_call0_v0_apply, val_main_cst_1_apply,
    d2_apply]
  simp only [Ideal.hostUnary_sqrt_def, Ideal.maximumf_def, Ideal.ofBits_def]
  rw [max_comm]
  rfl

/-! ### The label mask -/

theorem mask_apply (t : L) (p q : Fin 4096) :
    val_main_v18 (F := Ideal) t (ix2 p q) = IntOp.cmpi .eq (t (ix1 p)) (t (ix1 q)) := by
  rw [val_main_v18_apply, val_main_v16_apply, val_main_v14_apply, val_main_v17_apply, val_main_v15_apply,
    idx_label_left, idx_label_right]

/-- A select on the comparison of two labels is a choice on the rows being alike. -/
theorem select_alike {α : Type} (t : L) (p q : Fin 4096) (u v : α) :
    Scalar.select (IntOp.cmpi .eq (t (ix1 p)) (t (ix1 q))) u v = if alike t p q then u else v := by
  unfold Scalar.select
  by_cases h : alike t p q
  · rw [if_pos h]; exact if_pos (IntOp.cmpi_eq.mpr h)
  · rw [if_neg h]; exact if_neg (fun e => h (IntOp.cmpi_eq.mp e))

/-- The matrix whose row maxima are the hardest positives. -/
theorem pos_apply (x : X) (t : L) (p q : Fin 4096) :
    val_main_v19 (F := Ideal) x t (ix2 p q) = if alike t p q then root (d2 x p q) else ⊥ := by
  rw [val_main_v19_apply, mask_apply, dist_apply, val_main_call1_v0_apply, val_main_cst_2_apply, select_alike,
    Ideal.ofBits_def, ofBits_neg_inf]

/-- The matrix whose row minima are the hardest negatives. -/
theorem neg_apply (x : X) (t : L) (p q : Fin 4096) :
    val_main_v21 (F := Ideal) x t (ix2 p q) = if alike t p q then ⊤ else root (d2 x p q) := by
  rw [val_main_v21_apply, mask_apply, dist_apply, val_main_call2_v0_apply, val_main_cst_4_apply, select_alike,
    Ideal.ofBits_def, ofBits_pos_inf]

/-! ### The two reduces along a row, as folds over the 4096 columns -/

theorem rowMax_apply (y : (⟨S4096x4096, .f32⟩ : BufTy).Contents (Elt Ideal))
    (init : (⟨S_, .f32⟩ : BufTy).Contents (Elt Ideal)) (p : Fin 4096) :
    Host.reduce (FloatOps.maximumf (F := Ideal) (φ := .f32)) y init reducesTo_S4096x4096_S4096_d1 h_S_ (ix1 p)
      = (Finset.univ : Finset (Fin 4096)).fold max (init (Shape.Idx.first h_S_)) (fun k => y (ix2 p k)) := by
  rw [Host.reduce_eq_fold_single (FloatOps.maximumf (F := Ideal) (φ := .f32)) y init reducesTo_S4096x4096_S4096_d1
    (by decide) h_S_]
  exact Finset.fold_congr (fun k _ => congrArg y (Cert.Lib.HostRowSum.lift_row _ p k))

theorem rowMin_apply (y : (⟨S4096x4096, .f32⟩ : BufTy).Contents (Elt Ideal))
    (init : (⟨S_, .f32⟩ : BufTy).Contents (Elt Ideal)) (p : Fin 4096) :
    Host.reduce (FloatOps.minimumf (F := Ideal) (φ := .f32)) y init reducesTo_S4096x4096_S4096_d1 h_S_ (ix1 p)
      = (Finset.univ : Finset (Fin 4096)).fold min (init (Shape.Idx.first h_S_)) (fun k => y (ix2 p k)) := by
  rw [Host.reduce_eq_fold_single (FloatOps.minimumf (F := Ideal) (φ := .f32)) y init reducesTo_S4096x4096_S4096_d1
    (by decide) h_S_]
  exact Finset.fold_congr (fun k _ => congrArg y (Cert.Lib.HostRowSum.lift_row _ p k))

/-- The row maximum is the hardest positive distance. -/
theorem hardestPos_apply (x : X) (t : L) (p : Fin 4096) : val_main_v20 (F := Ideal) x t (ix1 p) = apD x t p := by
  unfold val_main_v20
  rw [rowMax_apply, val_main_cst_3_apply, Ideal.ofBits_def, ofBits_neg_inf]
  unfold apD
  rw [MineMath.root_ap2]
  exact Finset.fold_congr (fun k _ => pos_apply x t p k)

/-- The row minimum is the hardest negative distance. -/
theorem hardestNeg_apply (x : X) (t : L) (p : Fin 4096) : val_main_v22 (F := Ideal) x t (ix1 p) = anD x t p := by
  unfold val_main_v22
  rw [rowMin_apply, val_main_cst_5_apply, Ideal.ofBits_def, ofBits_pos_inf]
  unfold anD
  rw [MineMath.root_an2]
  exact Finset.fold_congr (fun k _ => neg_apply x t p k)

/-! ### One row's loss and precision, and the two means -/

theorem lossRow_apply (x : X) (t : L) (p : Fin 4096) :
    val_main_v27 (F := Ideal) x t (ix1 p) = lossRow (anD x t p) (apD x t p) := by
  rw [val_main_v27_apply, val_main_v25_apply, val_main_v24_apply, val_main_cst_6_apply, val_main_v23_apply,
    val_main_v26_apply, val_main_cst_7_apply, hardestNeg_apply, hardestPos_apply]
  rfl

/-- The comparison  a > b  turned into a float is the indicator of  b < a. -/
theorem indicator_ogt (a b : EReal) :
    (FloatOps.uitofp (F := Ideal) .f32 (FloatOps.cmpf (F := Ideal) (φ := .f32) .ogt a b) : EReal) = precRow a b := by
  show (((Ideal.cmp .ogt a b).toNat : ℝ) : EReal) = if b < a then 1 else 0
  by_cases h : b < a
  · rw [if_pos h, (ProofLib.RealOps.cmp_ogt_eq_one_iff a b).mpr h]
    simp
  · rw [if_neg h, eq_zero_of_ne_one (fun e => h ((ProofLib.RealOps.cmp_ogt_eq_one_iff a b).mp e))]
    simp

theorem precRow_apply (x : X) (t : L) (p : Fin 4096) :
    val_main_v31 (F := Ideal) x t (ix1 p) = precRow (anD x t p) (apD x t p) := by
  rw [val_main_v31_apply, val_main_v30_apply, hardestNeg_apply, hardestPos_apply]
  exact indicator_ogt _ _

/-- A rank-1 index of 4096 is its one coordinate. -/
def rowEquiv : S4096.Idx ≃ Fin 4096 where
  toFun j := j 0
  invFun p := ix1 p
  left_inv j := (eq_ix1 j).symm
  right_inv _ := rfl

theorem sum_rows (f : S4096.Idx → EReal) : ∑ j, f j = ∑ p : Fin 4096, f (ix1 p) :=
  (Equiv.sum_comp rowEquiv.symm f).symm

/-- The reference's first result is the mean loss. -/
theorem loss_eq (x : X) (t : L) : val_main_v29 (F := Ideal) x t = fun _ => lossOut x t := by
  funext i
  rw [val_main_v29_apply, val_main_v28_apply, val_main_cst_9_apply, val_main_cst_8_apply, sum_rows]
  simp only [lossRow_apply]
  rfl

/-- The reference's second result is the mean precision. -/
theorem prec_eq (x : X) (t : L) : val_main_v33 (F := Ideal) x t = fun _ => precOut x t := by
  funext i
  rw [val_main_v33_apply, val_main_v32_apply, val_main_cst_11_apply, val_main_cst_10_apply, sum_rows]
  simp only [precRow_apply]
  rfl

/-! ### The reference's run, with the specification as its post -/

/-- From any memory with zero counters the reference terminates with its two results at the specification's two
    means of its argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = (fun _ => lossOut (m ((c.tc : Thread nD τ).loc main_arg0)) (m ((c.tc : Thread nD τ).loc main_arg1)))
      ∧ r.2.mem ((c.tc : Thread nD τ).loc main_v33)
          = (fun _ => precOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v29_eq _ _).trans (loss_eq _ _)),
        (h c).2.1.trans ((val_main_v33_eq _ _).trans (prec_eq _ _)), (h c).2.2⟩)
    (Cert.ReferenceIdeal.Value.run (F := Ideal) m ρ)

end Cert.RefSide

end
-- ==== Proof.lean ====
/-
  The certificate's claims.

  Both programs compute a batch-hard triplet loss of 4096 points in 1024 dimensions with 4096 labels: for each row the
  largest distance to a row with its label and the smallest distance to a row with another label, then the mean over
  the rows of max (margin - (an - ap)) 0 and of the indicator an > ap. The reference takes the square root of every
  clipped squared distance and then the row's maximum and minimum; the kernel mines on the squared distances, tile by
  tile with a running maximum and minimum, and clips and takes the root once per row. The clipped root is monotone,
  every row has its own label, and the root of +inf is +inf, so it commutes with the masked maximum and minimum: on the
  extended reals the two programs compute the same two numbers. The kernel's two stand-ins for the infinities are
  named constants whose values at the ideal instance are the infinities themselves.
-/
import proofs.«119346_j15221364097742_2_alg».proof.Defs
import proofs.«119346_j15221364097742_2_alg».proof.Proof.Gen.Kernel
import proofs.«119346_j15221364097742_2_alg».proof.Proof.Gen.KernelIdeal
import proofs.«119346_j15221364097742_2_alg».proof.Proof.Gen.ReferenceIdeal
import proofs.«119346_j15221364097742_2_alg».proof.Proof.Gen.Pre_finite_inputs
import proofs.«119346_j15221364097742_2_alg».proof.Proof.KB.Frame
import proofs.«119346_j15221364097742_2_alg».proof.Proof.KI.Chain
import proofs.«119346_j15221364097742_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefSide.run m ρ)

/-- The four named constants: the table gives each stand-in the infinity it stands for. -/
theorem preserves : Cert.preserves_Kernel_KernelIdeal :=
  ⟨IdealRules.named_const.statement Cert.KernelIdeal.κ "neg_big" .f32 0xF149F2CA#32 ⊥ rfl,
   IdealRules.named_const.statement Cert.KernelIdeal.κ "pos_big" .f32 0x7149F2CA#32 ⊤ rfl,
   IdealRules.named_const.statement Cert.KernelIdeal.κ "neg_big" .f32 0xF149F2CA#32 ⊥ rfl,
   IdealRules.named_const.statement Cert.KernelIdeal.κ "pos_big" .f32 0x7149F2CA#32 ⊤ rfl⟩

/-- At the ideal values both programs end with the mean loss and the mean precision of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Spec.lossOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c _ => Cert.Spec.precOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.HandVal.run m ρ, ?_⟩
  refine (θ_run Cert.ReferenceIdeal.defs _ _).mono (fun _ h c => ⟨?_, ?_, (h c).2.2.1, (h c).2.2.2⟩) (Cert.RefSide.run m' ρ')
  · rw [(h c).1, (hagree c).1, (hagree c).2]; rfl
  · rw [(h c).2.1, (hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
